-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128 .f32) (main_arg10 : FVec F S128x64 .f32) (main_arg11 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 88
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x1, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x1, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x64, .f32⟩
  | .hbm, ⟨79, _⟩ => ⟨S800000x1, .f32⟩
  | .hbm, ⟨80, _⟩ => ⟨S800000x64, .f32⟩
  | .hbm, ⟨81, _⟩ => ⟨S800000x64, .f32⟩
  | .hbm, ⟨82, _⟩ => ⟨S_, .f32⟩
  | .hbm, ⟨83, _⟩ => ⟨S50000x64, .f32⟩
  | .hbm, ⟨84, _⟩ => ⟨S800000x1, .i32⟩
  | .hbm, ⟨85, _⟩ => ⟨S50000x64, .f32⟩
  | .hbm, ⟨86, _⟩ => ⟨S1x64, .f32⟩
  | .hbm, ⟨87, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_7 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S50000x64.size a
  hwx7_2 : ∀ i : grid7.Coords, EltTy.bits .f32 = 32 ∨ (Rect.block (s := S50000x64) S5000x64.size (cc7_transform_2 i) (hinb7_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v47) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v47) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v48) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v61) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v62) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v63) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S800000x1, .f32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S800000x1, .f32⟩
  | .hbm, ⟨69, _⟩ => ⟨S800000x128, .f32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S50000x64, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x64, .f32⟩
  | .hbm, ⟨91, _⟩ => ⟨S800000x1, .f32⟩
  | .hbm, ⟨92, _⟩ => ⟨S800000x64, .f32⟩
  | .hbm, ⟨93, _⟩ => ⟨S800000x64, .f32⟩
  | .hbm, ⟨94, _⟩ => ⟨S_, .f32⟩
  | .hbm, ⟨95, _⟩ => ⟨S50000x64, .f32⟩
  | .hbm, ⟨96, _⟩ => ⟨S800000x1, .i32⟩
  | .hbm, ⟨97, _⟩ => ⟨S50000x64, .f32⟩
  | .hbm, ⟨98, _⟩ => ⟨S1x64, .f32⟩
  | .hbm, ⟨99, _⟩ => ⟨S50000x64, .f32⟩
  | .hbm, ⟨100, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_cst : Ref sig .tc := ⟨.hbm, 55, rfl⟩
abbrev main_call1_v0 : Ref sig .tc := ⟨.hbm, 56, rfl⟩
abbrev main_v35 : Ref sig .tc := ⟨.hbm, 57, rfl⟩
abbrev main_v36 : Ref sig .tc := ⟨.hbm, 58, rfl⟩
abbrev main_c_4 : Ref sig .tc := ⟨.hbm, 59, rfl⟩
abbrev main_v37 : Ref sig .tc := ⟨.hbm, 60, rfl⟩
abbrev main_v38 : Ref sig .tc := ⟨.hbm, 61, rfl⟩
abbrev main_c_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call2_cst : Ref sig .tc := ⟨.hbm, 78, rfl⟩
abbrev main_call2_v0 : Ref sig .tc := ⟨.hbm, 79, rfl⟩
abbrev main_v53 : Ref sig .tc := ⟨.hbm, 80, rfl⟩
abbrev main_v54 : Ref sig .tc := ⟨.hbm, 81, rfl⟩
abbrev main_c_7 : Ref sig .tc := ⟨.hbm, 82, rfl⟩
abbrev main_v55 : Ref sig .tc := ⟨.hbm, 83, rfl⟩
abbrev main_v56 : Ref sig .tc := ⟨.hbm, 84, rfl⟩
abbrev main_c_8 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.LibBodyBias.lean ====
/-
  The kernel bodies' "add the bias row, floor at zero", on the extended reals.

  Inside a kernel body a block of `R` rows `a` (an `[R, N]` array) meets the one-row bias `b` (an `[1, N]` array) as
  `max (a + broadcast b) (splat z)`: the bias is broadcast over the rows, and the floor `z` is a scalar splat. Entry
  `(p, q)` is therefore `max (a (p, q) + b (0, q)) z`: the body's expression is `rowBiasFloor z a b`, the same function
  the host's spelling of the rectified bias denotes.
-/
import proofs.«137852_j15393162789376_1_alg».proof.Proof.LibRowBias
import Idealize.ShloMosaic.Lib.Pipeline.Value

noncomputable section

namespace Cert.LibBodyBias

open Idealize.ShloMosaic Idealize.ShloMosaic.ValueIdx Cert.LibRowBias

/-- A one-row array broadcast over `R` rows reads, at `(p, q)`, the row at `(0, q)`. -/
theorem broadcastRow_apply {α : Type} {R N : ℕ} (b : (⟨2, ![1, N]⟩ : Shape).Idx → α)
    (h : (⟨2, ![1, N]⟩ : Shape).Broadcasts ⟨2, ![R, N]⟩) (p : Fin R) (q : Fin N) :
    broadcastTo ⟨2, ![R, N]⟩ b h (ix2 p q) = b (ix2 (0 : Fin 1) q) := by
  have hq : q.val = if N = 1 then 0 else q.val := by
    split
    · have := q.isLt; omega
    · rfl
  refine broadcastTo_apply b h (ix2 p q) (ix2 (0 : Fin 1) q) (fun a => ?_)
  match a with
  | ⟨0, _⟩ => show 0 = if (1 : ℕ) = 1 then 0 else p.val; rw [if_pos rfl]
  | ⟨1, _⟩ => show q.val = if N = 1 then 0 else q.val; exact hq

/-- The body's rectified bias of a block of rows is `rowBiasFloor` at the splat word's value. -/
theorem max_addf_broadcastRow {R N : ℕ} (w : BitVec 32) (a : FVec Ideal ⟨2, ![R, N]⟩ .f32) (b : FVec Ideal ⟨2, ![1, N]⟩ .f32)
    (ha : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩) :
    maximumf (addf (shapeCast ⟨2, ![R, N]⟩ a ha) (broadcastTo ⟨2, ![R, N]⟩ (shapeCast ⟨2, ![1, N]⟩ b hb) hbc))
        (broadcast ⟨2, ![R, N]⟩ (Scalar.ofBits (F := Ideal) .f32 w))
      = rowBiasFloor (M := R) (N := N) (Ideal.ofBits .f32 w) a b := by
  rw [shapeCast_self, shapeCast_self]
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBiasFloor_apply]
  show max (a (ix2 p q) + broadcastTo ⟨2, ![R, N]⟩ b hbc (ix2 p q)) (Ideal.ofBits .f32 w) = _
  rw [broadcastRow_apply]

end Cert.LibBodyBias

end
-- ==== Proof.Body.lean ====
/-
  What one grid point of each kernel computes, on the extended reals, as rows of a whole-array function.

  A point of the product kernel holds `R` consecutive rows of the features (rows `o, …, o + R - 1` of an `[M, K]`
  array) and the whole weight matrix; it rounds both to a narrower format — the identity on the extended reals — and
  multiplies them into a zero accumulator. Entry `(y, q)` of the result is row `o + y` of the features times column
  `q` of the weights: the same entry of the whole product (`product_rows`).

  A point of the bias kernel holds `R` consecutive rows of the aggregated array and the one-row bias; it adds the
  bias to every row and (when the layer has one) takes the maximum with a zero splat. Entry `(y, q)` is that entry
  of the whole array plus the bias at `q`, floored (`biasFloor_rows`) or not (`biasPlain_rows`).
-/
import proofs.«137852_j15393162789376_1_alg».proof.Proof.LibPlainDot
import proofs.«137852_j15393162789376_1_alg».proof.Proof.LibRowBias
import proofs.«137852_j15393162789376_1_alg».proof.Proof.LibBodyBias

noncomputable section

namespace Cert.Gcn

open Idealize.ShloMosaic Idealize.ShloMosaic.ValueIdx Cert.LibPlainDot Cert.LibRowBias Cert.LibBodyBias

/-- Rounding both operands to a narrower format and multiplying into the zero splat is the plain product. -/
theorem product_body {R K N : ℕ} (d : DotDims ⟨2, ![R, K]⟩ ⟨2, ![K, N]⟩ ⟨2, ![R, N]⟩) (hd : d = DotDims.plain R K N)
    (x0 : FVec Ideal ⟨2, ![R, K]⟩ .f32) (x1 : FVec Ideal ⟨2, ![K, N]⟩ .f32)
    (h0 : FTy.bf16.bits < FTy.f32.bits) (h1 : FTy.bf16.bits < FTy.f32.bits) :
    matmul d none (truncf .bf16 x0 h0) (truncf .bf16 x1 h1) (constant ⟨2, ![R, N]⟩ .f32 0x00000000#32)
      = rowsTimes x0 x1 := by
  subst hd
  exact matmul_zero_plain none (truncf .bf16 x0 h0) (truncf .bf16 x1 h1)

/-- A block of rows of the features times the whole weight matrix is that block of rows of the whole product. -/
theorem product_rows {M R K N : ℕ} (o : ℕ) (d : DotDims ⟨2, ![R, K]⟩ ⟨2, ![K, N]⟩ ⟨2, ![R, N]⟩) (hd : d = DotDims.plain R K N)
    (h : (⟨2, ![M, K]⟩ : Shape).Idx → EReal) (W : (⟨2, ![K, N]⟩ : Shape).Idx → EReal)
    (x0 : FVec Ideal ⟨2, ![R, K]⟩ .f32) (x1 : FVec Ideal ⟨2, ![K, N]⟩ .f32)
    (h0 : FTy.bf16.bits < FTy.f32.bits) (h1 : FTy.bf16.bits < FTy.f32.bits)
    (hx0 : ∀ (y : Fin R) (k : Fin K) (hM : o + y.val < M), x0 (ix2 y k) = h (ix2 (⟨o + y.val, hM⟩ : Fin M) k))
    (hx1 : x1 = W)
    (y : (⟨2, ![R, N]⟩ : Shape).Idx) (i : (⟨2, ![M, N]⟩ : Shape).Idx) (hi0 : (i 0).val = o + (y 0).val) (hi1 : (i 1).val = (y 1).val) :
    matmul d none (truncf .bf16 x0 h0) (truncf .bf16 x1 h1) (constant ⟨2, ![R, N]⟩ .f32 0x00000000#32) y
      = rowsTimes h W i := by
  rw [product_body d hd x0 x1 h0 h1, hx1]
  exact rowsTimes_rows o h x0 W hx0 y i hi0 hi1

/-- A block of rows plus the bias row, floored at a splat word, is that block of rows of the whole floored sum. -/
theorem biasFloor_rows {M R N : ℕ} (o : ℕ) (w : BitVec 32) (a : (⟨2, ![M, N]⟩ : Shape).Idx → EReal) (b : (⟨2, ![1, N]⟩ : Shape).Idx → EReal)
    (x0 : FVec Ideal ⟨2, ![R, N]⟩ .f32) (x1 : FVec Ideal ⟨2, ![1, N]⟩ .f32)
    (ha : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩)
    (hx0 : ∀ (p : Fin R) (q : Fin N) (hM : o + p.val < M), x0 (ix2 p q) = a (ix2 (⟨o + p.val, hM⟩ : Fin M) q))
    (hx1 : x1 = b)
    (y : (⟨2, ![R, N]⟩ : Shape).Idx) (i : (⟨2, ![M, N]⟩ : Shape).Idx) (hi0 : (i 0).val = o + (y 0).val) (hi1 : (i 1).val = (y 1).val) :
    maximumf (addf (shapeCast ⟨2, ![R, N]⟩ x0 ha) (broadcastTo ⟨2, ![R, N]⟩ (shapeCast ⟨2, ![1, N]⟩ x1 hb) hbc))
        (broadcast ⟨2, ![R, N]⟩ (Scalar.ofBits (F := Ideal) .f32 w)) y
      = rowBiasFloor (Ideal.ofBits .f32 w) a b i := by
  rw [max_addf_broadcastRow w x0 x1 ha hb hbc, hx1]
  exact rowBiasFloor_rows (Ideal.ofBits .f32 w) o a x0 b hx0 y i hi0 hi1

/-- The body's plain bias of a block of rows is `rowBias`. -/
theorem addf_broadcastRow {R N : ℕ} (a : FVec Ideal ⟨2, ![R, N]⟩ .f32) (b : FVec Ideal ⟨2, ![1, N]⟩ .f32)
    (ha : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩) :
    addf (shapeCast ⟨2, ![R, N]⟩ a ha) (broadcastTo ⟨2, ![R, N]⟩ (shapeCast ⟨2, ![1, N]⟩ b hb) hbc)
      = rowBias (M := R) (N := N) a b := by
  rw [shapeCast_self, shapeCast_self]
  funext i
  obtain ⟨p, q, rfl⟩ : ∃ (p : Fin R) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply]
  show a (ix2 p q) + broadcastTo ⟨2, ![R, N]⟩ b hbc (ix2 p q) = _
  rw [broadcastRow_apply]

/-- A block of rows plus the bias row is that block of rows of the whole sum. -/
theorem biasPlain_rows {M R N : ℕ} (o : ℕ) (a : (⟨2, ![M, N]⟩ : Shape).Idx → EReal) (b : (⟨2, ![1, N]⟩ : Shape).Idx → EReal)
    (x0 : FVec Ideal ⟨2, ![R, N]⟩ .f32) (x1 : FVec Ideal ⟨2, ![1, N]⟩ .f32)
    (ha : (⟨2, ![R, N]⟩ : Shape).ShapeCasts ⟨2, ![R, N]⟩) (hb : (⟨2, ![1, N]⟩ : Shape).ShapeCasts ⟨2, ![1, N]⟩)
    (hbc : (⟨2, ![1, N]⟩ : Shape).Broadcasts ⟨2, ![R, N]⟩)
    (hx0 : ∀ (p : Fin R) (q : Fin N) (hM : o + p.val < M), x0 (ix2 p q) = a (ix2 (⟨o + p.val, hM⟩ : Fin M) q))
    (hx1 : x1 = b)
    (y : (⟨2, ![R, N]⟩ : Shape).Idx) (i : (⟨2, ![M, N]⟩ : Shape).Idx) (hi0 : (i 0).val = o + (y 0).val) (hi1 : (i 1).val = (y 1).val) :
    addf (shapeCast ⟨2, ![R, N]⟩ x0 ha) (broadcastTo ⟨2, ![R, N]⟩ (shapeCast ⟨2, ![1, N]⟩ x1 hb) hbc) y
      = rowBias a b i := by
  rw [addf_broadcastRow x0 x1 ha hb hbc, hx1]
  exact rowBias_rows o a x0 b hx0 y i hi0 hi1

end Cert.Gcn

end
-- ==== Proof.Region0.lean ====
/-
  Region 0 of the kernel program, read as a whole-array function of the arrays the region finds.

  The region multiplies: its body rounds a block of rows of the features and the weight matrix to a narrower format
  (the identity on the extended reals) and multiplies them into a zero accumulator, so the result array ends holding
  the product of the features array and the weight matrix.

  The region's grid has ten points; point `t` holds rows `5000 t, …, 5000 t + 4999` of the first operand and of the
  result, and the whole second operand. What point `t` writes back is therefore rows `5000 t …` of the whole-array
  function (one point's computation, in the module of the bodies), the ten row blocks tile the result array, and so
  the array ends holding that function of the two operand arrays — whatever those arrays hold when the region starts.
-/
import proofs.«137852_j15393162789376_1_alg».proof.Proof.Gen.KernelIdeal.Frame
import proofs.«137852_j15393162789376_1_alg».proof.Proof.Body
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Gcn Cert.LibPlainDot Cert.LibRowBias

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the first operand's and the result's block row is the point's number, every
    other block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the result is some point's. -/
theorem onto0 : ∀ q : Fin 10, ∃ t : Fin cfg0.N, win0_2.index t = ![q.val, 0] :=
  (by decide +kernel : ∀ q : Fin 10, ∃ t : Fin grid0.N, win0_2.index t = ![q.val, 0])

/-- WHAT POINT `t` WRITES BACK is its block of rows of the product of the two arrays the region finds. -/
theorem flushed0 (c : Dev nD) (t : Fin cfg0.N) :
    (dat0 V c).flushed 2 t = ((cfg0.win 2).blk t).view.read (Elt Ideal)
      (rowsTimes (M := 50000) (K := 128) (N := 128) (V c main_arg0) (V c main_arg4)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  obtain ⟨e0, e1, e2, e3, e4, e5⟩ := idx0 t
  funext j
  show matmul (F := Ideal) dot_S5000x128_S128x128_S5000x128_1_0_0_1_n_n none (truncf (F := Ideal) .bf16 (iblk0 V c 0 t) bitsLt_bf16_f32)
      (truncf (F := Ideal) .bf16 (iblk0 V c 1 t) bitsLt_bf16_f32) (constant S5000x128 .f32 0x00000000#32) j
    = rowsTimes (M := 50000) (K := 128) (N := 128) (V c main_arg0) (V c main_arg4) (((cfg0.win 2).blk t).view.emb j)
  refine product_rows (M := 50000) (R := 5000) (K := 128) (N := 128) (5000 * t.val)
    dot_S5000x128_S128x128_S5000x128_1_0_0_1_n_n rfl (V c main_arg0) (V c main_arg4) (iblk0 V c 0 t) (iblk0 V c 1 t)
    bitsLt_bf16_f32 bitsLt_bf16_f32 ?_ ?_ j (((cfg0.win 2).blk t).view.emb j) ?_ ?_
  · intro y k hM
    show V c main_arg0 (((cfg0.win 0).blk t).view.emb (ix2 y k)) = _
    refine congrArg (V c main_arg0) (funext fun a => Fin.ext ?_)
    match a with
    | ⟨0, _⟩ => show win0_0.index t (0 : Fin 2) * 5000 + 1 * y.val = 5000 * t.val + y.val; omega
    | ⟨1, _⟩ => show win0_0.index t (1 : Fin 2) * 128 + 1 * k.val = k.val; omega
  · funext y
    show V c main_arg4 (((cfg0.win 1).blk t).view.emb y) = V c main_arg4 y
    refine congrArg (V c main_arg4) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (0 : Fin 2) * 5000 + 1 * (j 0).val = 5000 * t.val + (j 0).val; omega
  · show win0_2.index t (1 : Fin 2) * 128 + 1 * (j 1).val = (j 1).val; omega

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The ten row blocks tile the result array: row `r` is in the block of point `r / 5000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT ARRAY after the region is the product of the two arrays the region finds. -/
theorem final0 (c : Dev nD) :
    (dat0 V c).arrAt 2 cfg0.N = rowsTimes (M := 50000) (K := 128) (N := 128) (V c main_arg0) (V c main_arg4) :=
  (dat0 V c).arrAt_eq_of_cover 2 _ (fun t _ => flushed0 V c t) (cover0)

end Cert.KernelIdeal.Layers

end
-- ==== Proof.Region1.lean ====
/-
  Region 1 of the kernel program, read as a whole-array function of the arrays the region finds.

  The region adds the bias and floors: its body adds the one-row bias to a block of rows of the aggregated array and
  takes the maximum with a zero splat, so the result array ends holding the aggregated array plus the bias row,
  floored at zero.

  The region's grid has ten points; point `t` holds rows `5000 t, …, 5000 t + 4999` of the first operand and of the
  result, and the whole second operand. What point `t` writes back is therefore rows `5000 t …` of the whole-array
  function (one point's computation, in the module of the bodies), the ten row blocks tile the result array, and so
  the array ends holding that function of the two operand arrays — whatever those arrays hold when the region starts.
-/
import proofs.«137852_j15393162789376_1_alg».proof.Proof.Gen.KernelIdeal.Frame
import proofs.«137852_j15393162789376_1_alg».proof.Proof.Body
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Gcn Cert.LibPlainDot Cert.LibRowBias

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the first operand's and the result's block row is the point's number, every
    other block index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block row of the result is some point's. -/
theorem onto1 : ∀ q : Fin 10, ∃ t : Fin cfg1.N, win1_2.index t = ![q.val, 0] :=
  (by decide +kernel : ∀ q : Fin 10, ∃ t : Fin grid1.N, win1_2.index t = ![q.val, 0])

/-- WHAT POINT `t` WRITES BACK is its block of rows of the biased, floored array. -/
theorem flushed1 (c : Dev nD) (t : Fin cfg1.N) :
    (dat1 V c).flushed 2 t = ((cfg1.win 2).blk t).view.read (Elt Ideal)
      (rowBiasFloor (M := 50000) (N := 128) (Ideal.ofBits .f32 0x00000000#32) (V c main_v13) (V c main_v14)) := by
  show (cfg1.win 2).cut (grid1.coords t) ((dat1 V c).after 2 t) = _
  rw [after1_2]
  unfold out1_2
  rw [View.canon_unit_zero hz1]
  simp only [View.ld_unit_zero (S := S5000x128) hz1, View.ld_unit_zero (S := S1x128) hz1]
  obtain ⟨e0, e1, e2, e3, e4, e5⟩ := idx1 t
  funext j
  show maximumf (F := Ideal) (addf (F := Ideal) (shapeCast S5000x128 (iblk1 V c 0 t) shapeCasts_S5000x128_S5000x128)
      (broadcastTo S5000x128 (shapeCast S1x128 (iblk1 V c 1 t) shapeCasts_S1x128_S1x128) broadcasts_S1x128_S5000x128))
      (broadcast S5000x128 (Scalar.ofBits (F := Ideal) .f32 0x00000000#32)) j
    = rowBiasFloor (M := 50000) (N := 128) (Ideal.ofBits .f32 0x00000000#32) (V c main_v13) (V c main_v14) (((cfg1.win 2).blk t).view.emb j)
  refine biasFloor_rows (M := 50000) (R := 5000) (N := 128) (5000 * t.val) 0x00000000#32
    (V c main_v13) (V c main_v14) (iblk1 V c 0 t) (iblk1 V c 1 t)
    shapeCasts_S5000x128_S5000x128 shapeCasts_S1x128_S1x128 broadcasts_S1x128_S5000x128 ?_ ?_ j (((cfg1.win 2).blk t).view.emb j) ?_ ?_
  · intro y k hM
    show V c main_v13 (((cfg1.win 0).blk t).view.emb (ix2 y k)) = _
    refine congrArg (V c main_v13) (funext fun a => Fin.ext ?_)
    match a with
    | ⟨0, _⟩ => show win1_0.index t (0 : Fin 2) * 5000 + 1 * y.val = 5000 * t.val + y.val; omega
    | ⟨1, _⟩ => show win1_0.index t (1 : Fin 2) * 128 + 1 * k.val = k.val; omega
  · funext y
    show V c main_v14 (((cfg1.win 1).blk t).view.emb y) = V c main_v14 y
    refine congrArg (V c main_v14) (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  · show win1_2.index t (0 : Fin 2) * 5000 + 1 * (j 0).val = 5000 * t.val + (j 0).val; omega
  · show win1_2.index t (1 : Fin 2) * 128 + 1 * (j 1).val = (j 1).val; omega

/-- An index of the result array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v15).slice (win1_2.rect t)).set ↔ _
  rw [View.set_slice_whole, Rect.mem_set_unit]
  exact Iff.rfl

/-- The ten row blocks tile the result array: row `r` is in the block of point `r / 5000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE RESULT ARRAY after the region is the aggregated array plus the bias row, floored at zero. -/
theorem final1 (c : Dev nD) :
    (dat1 V c).arrAt 2 cfg1.N = rowBiasFloor (M := 50000) (N := 128) (Ideal.ofBits .f32 0x00000000#32) (V c main_v13) (V c main_v14) :=
  (dat1 V c).arrAt_eq_of_cover 2 _ (fun t _ => flushed1 V c t) (cover1)

end Cert.KernelIdeal.Layers

end
-- ==== Proof.Region2.lean ====
/-
  Region 2 of the kernel program, read as a whole-array function of the arrays the region finds.

  The region multiplies: its body (after a shape cast that changes nothing) rounds a block of rows of the features and the weight matrix to a narrower format
  (the identity on the extended reals) and multiplies them into a zero accumulator, so the result array ends holding
  the product of the features array and the weight matrix.

  The region's grid has ten points; point `t` holds rows `5000 t, …, 5000 t + 4999` of the first operand and of the
  result, and the whole second operand. What point `t` writes back is therefore rows `5000 t …` of the whole-array
  function (one point's computation, in the module of the bodies), the ten row blocks tile the result array, and so
  the array ends holding that function of the two operand arrays — whatever those arrays hold when the region starts.
-/
import proofs.«137852_j15393162789376_1_alg».proof.Proof.Gen.KernelIdeal.Frame
import proofs.«137852_j15393162789376_1_alg».proof.Proof.Body
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Gcn Cert.LibPlainDot Cert.LibRowBias

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the first operand's and the result's block row is the point's number, every
    other block index is zero. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block row of the result is some point's. -/
theorem onto2 : ∀ q : Fin 10, ∃ t : Fin cfg2.N, win2_2.index t = ![q.val, 0] :=
  (by decide +kernel : ∀ q : Fin 10, ∃ t : Fin grid2.N, win2_2.index t = ![q.val, 0])

/-- WHAT POINT `t` WRITES BACK is its block of rows of the product of the two arrays the region finds. -/
theorem flushed2 (c : Dev nD) (t : Fin cfg2.N) :
    (dat2 V c).flushed 2 t = ((cfg2.win 2).blk t).view.read (Elt Ideal)
      (rowsTimes (M := 50000) (K := 128) (N := 128) (V c main_v15) (V c main_arg6)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  obtain ⟨e0, e1, e2, e3, e4, e5⟩ := idx2 t
  funext j
  show matmul (F := Ideal) dot_S5000x128_S128x128_S5000x128_1_0_0_1_n_n none (truncf (F := Ideal) .bf16 (shapeCast S5000x128 (iblk2 V c 0 t) shapeCasts_S5000x128_S5000x128) bitsLt_bf16_f32)
      (truncf (F := Ideal) .bf16 (iblk2 V c 1 t) bitsLt_bf16_f32) (constant S5000x128 .f32 0x00000000#32) j
    = rowsTimes (M := 50000) (K := 128) (N := 128) (V c main_v15) (V c main_arg6) (((cfg2.win 2).blk t).view.emb j)
  refine product_rows (M := 50000) (R := 5000) (K := 128) (N := 128) (5000 * t.val)
    dot_S5000x128_S128x128_S5000x128_1_0_0_1_n_n rfl (V c main_v15) (V c main_arg6) (shapeCast S5000x128 (iblk2 V c 0 t) shapeCasts_S5000x128_S5000x128) (iblk2 V c 1 t)
    bitsLt_bf16_f32 bitsLt_bf16_f32 ?_ ?_ j (((cfg2.win 2).blk t).view.emb j) ?_ ?_
  · intro y k hM
    refine (congrFun (shapeCast_self (s := S5000x128) (iblk2 V c 0 t) shapeCasts_S5000x128_S5000x128) (ix2 y k)).trans ?_
    show V c main_v15 (((cfg2.win 0).blk t).view.emb (ix2 y k)) = _
    refine congrArg (V c main_v15) (funext fun a => Fin.ext ?_)
    match a with
    | ⟨0, _⟩ => show win2_0.index t (0 : Fin 2) * 5000 + 1 * y.val = 5000 * t.val + y.val; omega
    | ⟨1, _⟩ => show win2_0.index t (1 : Fin 2) * 128 + 1 * k.val = k.val; omega
  · funext y
    show V c main_arg6 (((cfg2.win 1).blk t).view.emb y) = V c main_arg6 y
    refine congrArg (V c main_arg6) (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · show win2_2.index t (0 : Fin 2) * 5000 + 1 * (j 0).val = 5000 * t.val + (j 0).val; omega
  · show win2_2.index t (1 : Fin 2) * 128 + 1 * (j 1).val = (j 1).val; omega

/-- An index of the result array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v16).slice (win2_2.rect t)).set ↔ _
  rw [View.set_slice_whole, Rect.mem_set_unit]
  exact Iff.rfl

/-- The ten row blocks tile the result array: row `r` is in the block of point `r / 5000`. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE RESULT ARRAY after the region is the product of the two arrays the region finds. -/
theorem final2 (c : Dev nD) :
    (dat2 V c).arrAt 2 cfg2.N = rowsTimes (M := 50000) (K := 128) (N := 128) (V c main_v15) (V c main_arg6) :=
  (dat2 V c).arrAt_eq_of_cover 2 _ (fun t _ => flushed2 V c t) (cover2)

end Cert.KernelIdeal.Layers

end
-- ==== Proof.Region3.lean ====
/-
  Region 3 of the kernel program, read as a whole-array function of the arrays the region finds.

  The region adds the bias and floors: its body adds the one-row bias to a block of rows of the aggregated array and
  takes the maximum with a zero splat, so the result array ends holding the aggregated array plus the bias row,
  floored at zero.

  The region's grid has ten points; point `t` holds rows `5000 t, …, 5000 t + 4999` of the first operand and of the
  result, and the whole second operand. What point `t` writes back is therefore rows `5000 t …` of the whole-array
  function (one point's computation, in the module of the bodies), the ten row blocks tile the result array, and so
  the array ends holding that function of the two operand arrays — whatever those arrays hold when the region starts.
-/
import proofs.«137852_j15393162789376_1_alg».proof.Proof.Gen.KernelIdeal.Frame
import proofs.«137852_j15393162789376_1_alg».proof.Proof.Body
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Gcn Cert.LibPlainDot Cert.LibRowBias

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the first operand's and the result's block row is the point's number, every
    other block index is zero. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every block row of the result is some point's. -/
theorem onto3 : ∀ q : Fin 10, ∃ t : Fin cfg3.N, win3_2.index t = ![q.val, 0] :=
  (by decide +kernel : ∀ q : Fin 10, ∃ t : Fin grid3.N, win3_2.index t = ![q.val, 0])

/-- WHAT POINT `t` WRITES BACK is its block of rows of the biased, floored array. -/
theorem flushed3 (c : Dev nD) (t : Fin cfg3.N) :
    (dat3 V c).flushed 2 t = ((cfg3.win 2).blk t).view.read (Elt Ideal)
      (rowBiasFloor (M := 50000) (N := 128) (Ideal.ofBits .f32 0x00000000#32) (V c main_v29) (V c main_v30)) := by
  show (cfg3.win 2).cut (grid3.coords t) ((dat3 V c).after 2 t) = _
  rw [after3_2]
  unfold out3_2
  rw [View.canon_unit_zero hz3]
  simp only [View.ld_unit_zero (S := S5000x128) hz3, View.ld_unit_zero (S := S1x128) hz3]
  obtain ⟨e0, e1, e2, e3, e4, e5⟩ := idx3 t
  funext j
  show maximumf (F := Ideal) (addf (F := Ideal) (shapeCast S5000x128 (iblk3 V c 0 t) shapeCasts_S5000x128_S5000x128)
      (broadcastTo S5000x128 (shapeCast S1x128 (iblk3 V c 1 t) shapeCasts_S1x128_S1x128) broadcasts_S1x128_S5000x128))
      (broadcast S5000x128 (Scalar.ofBits (F := Ideal) .f32 0x00000000#32)) j
    = rowBiasFloor (M := 50000) (N := 128) (Ideal.ofBits .f32 0x00000000#32) (V c main_v29) (V c main_v30) (((cfg3.win 2).blk t).view.emb j)
  refine biasFloor_rows (M := 50000) (R := 5000) (N := 128) (5000 * t.val) 0x00000000#32
    (V c main_v29) (V c main_v30) (iblk3 V c 0 t) (iblk3 V c 1 t)
    shapeCasts_S5000x128_S5000x128 shapeCasts_S1x128_S1x128 broadcasts_S1x128_S5000x128 ?_ ?_ j (((cfg3.win 2).blk t).view.emb j) ?_ ?_
  · intro y k hM
    show V c main_v29 (((cfg3.win 0).blk t).view.emb (ix2 y k)) = _
    refine congrArg (V c main_v29) (funext fun a => Fin.ext ?_)
    match a with
    | ⟨0, _⟩ => show win3_0.index t (0 : Fin 2) * 5000 + 1 * y.val = 5000 * t.val + y.val; omega
    | ⟨1, _⟩ => show win3_0.index t (1 : Fin 2) * 128 + 1 * k.val = k.val; omega
  · funext y
    show V c main_v30 (((cfg3.win 1).blk t).view.emb y) = V c main_v30 y
    refine congrArg (V c main_v30) (funext fun a => Fin.ext ?_)
    match a with
    | ⟨0, _⟩ => show win3_1.index t (0 : Fin 2) * 1 + 1 * (y 0).val = (y 0).val; omega
    | ⟨1, _⟩ => show win3_1.index t (1 : Fin 2) * 128 + 1 * (y 1).val = (y 1).val; omega
  · show win3_2.index t (0 : Fin 2) * 5000 + 1 * (j 0).val = 5000 * t.val + (j 0).val; omega
  · show win3_2.index t (1 : Fin 2) * 128 + 1 * (j 1).val = (j 1).val; omega

/-- An index of the result array is in point `t`'s block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v31).slice (win3_2.rect t)).set ↔ _
  rw [View.set_slice_whole, Rect.mem_set_unit]
  exact Iff.rfl

/-- The ten row blocks tile the result array: row `r` is in the block of point `r / 5000`. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE RESULT ARRAY after the region is the aggregated array plus the bias row, floored at zero. -/
theorem final3 (c : Dev nD) :
    (dat3 V c).arrAt 2 cfg3.N = rowBiasFloor (M := 50000) (N := 128) (Ideal.ofBits .f32 0x00000000#32) (V c main_v29) (V c main_v30) :=
  (dat3 V c).arrAt_eq_of_cover 2 _ (fun t _ => flushed3 V c t) (cover3)

end Cert.KernelIdeal.Layers

end
-- ==== Proof.Region4.lean ====
/-
  Region 4 of the kernel program, read as a whole-array function of the arrays the region finds.

  The region multiplies: its body (after a shape cast that changes nothing) rounds a block of rows of the features and the weight matrix to a narrower format
  (the identity on the extended reals) and multiplies them into a zero accumulator, so the result array ends holding
  the product of the features array and the weight matrix.

  The region's grid has ten points; point `t` holds rows `5000 t, …, 5000 t + 4999` of the first operand and of the
  result, and the whole second operand. What point `t` writes back is therefore rows `5000 t …` of the whole-array
  function (one point's computation, in the module of the bodies), the ten row blocks tile the result array, and so
  the array ends holding that function of the two operand arrays — whatever those arrays hold when the region starts.
-/
import proofs.«137852_j15393162789376_1_alg».proof.Proof.Gen.KernelIdeal.Frame
import proofs.«137852_j15393162789376_1_alg».proof.Proof.Body
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Gcn Cert.LibPlainDot Cert.LibRowBias

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: the first operand's and the result's block row is the point's number, every
    other block index is zero. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every block row of the result is some point's. -/
theorem onto4 : ∀ q : Fin 10, ∃ t : Fin cfg4.N, win4_2.index t = ![q.val, 0] :=
  (by decide +kernel : ∀ q : Fin 10, ∃ t : Fin grid4.N, win4_2.index t = ![q.val, 0])

/-- WHAT POINT `t` WRITES BACK is its block of rows of the product of the two arrays the region finds. -/
theorem flushed4 (c : Dev nD) (t : Fin cfg4.N) :
    (dat4 V c).flushed 2 t = ((cfg4.win 2).blk t).view.read (Elt Ideal)
      (rowsTimes (M := 50000) (K := 128) (N := 128) (V c main_v31) (V c main_arg8)) := by
  show (cfg4.win 2).cut (grid4.coords t) ((dat4 V c).after 2 t) = _
  rw [after4_2]
  unfold out4_2
  rw [View.canon_unit_zero hz4]
  simp only [View.ld_unit_zero (S := S5000x128) hz4, View.ld_unit_zero (S := S128x128) hz4]
  obtain ⟨e0, e1, e2, e3, e4, e5⟩ := idx4 t
  funext j
  show matmul (F := Ideal) dot_S5000x128_S128x128_S5000x128_1_0_0_1_n_n none (truncf (F := Ideal) .bf16 (shapeCast S5000x128 (iblk4 V c 0 t) shapeCasts_S5000x128_S5000x128) bitsLt_bf16_f32)
      (truncf (F := Ideal) .bf16 (iblk4 V c 1 t) bitsLt_bf16_f32) (constant S5000x128 .f32 0x00000000#32) j
    = rowsTimes (M := 50000) (K := 128) (N := 128) (V c main_v31) (V c main_arg8) (((cfg4.win 2).blk t).view.emb j)
  refine product_rows (M := 50000) (R := 5000) (K := 128) (N := 128) (5000 * t.val)
    dot_S5000x128_S128x128_S5000x128_1_0_0_1_n_n rfl (V c main_v31) (V c main_arg8) (shapeCast S5000x128 (iblk4 V c 0 t) shapeCasts_S5000x128_S5000x128) (iblk4 V c 1 t)
    bitsLt_bf16_f32 bitsLt_bf16_f32 ?_ ?_ j (((cfg4.win 2).blk t).view.emb j) ?_ ?_
  · intro y k hM
    refine (congrFun (shapeCast_self (s := S5000x128) (iblk4 V c 0 t) shapeCasts_S5000x128_S5000x128) (ix2 y k)).trans ?_
    show V c main_v31 (((cfg4.win 0).blk t).view.emb (ix2 y k)) = _
    refine congrArg (V c main_v31) (funext fun a => Fin.ext ?_)
    match a with
    | ⟨0, _⟩ => show win4_0.index t (0 : Fin 2) * 5000 + 1 * y.val = 5000 * t.val + y.val; omega
    | ⟨1, _⟩ => show win4_0.index t (1 : Fin 2) * 128 + 1 * k.val = k.val; omega
  · funext y
    show V c main_arg8 (((cfg4.win 1).blk t).view.emb y) = V c main_arg8 y
    refine congrArg (V c main_arg8) (funext fun a => Fin.ext ?_)
    match a with
    | ⟨0, _⟩ => show win4_1.index t (0 : Fin 2) * 128 + 1 * (y 0).val = (y 0).val; omega
    | ⟨1, _⟩ => show win4_1.index t (1 : Fin 2) * 128 + 1 * (y 1).val = (y 1).val; omega
  · show win4_2.index t (0 : Fin 2) * 5000 + 1 * (j 0).val = 5000 * t.val + (j 0).val; omega
  · show win4_2.index t (1 : Fin 2) * 128 + 1 * (j 1).val = (j 1).val; omega

/-- An index of the result array is in point `t`'s block iff each coordinate is in the block's range on its axis. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v32).slice (win4_2.rect t)).set ↔ _
  rw [View.set_slice_whole, Rect.mem_set_unit]
  exact Iff.rfl

/-- The ten row blocks tile the result array: row `r` is in the block of point `r / 5000`. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- THE RESULT ARRAY after the region is the product of the two arrays the region finds. -/
theorem final4 (c : Dev nD) :
    (dat4 V c).arrAt 2 cfg4.N = rowsTimes (M := 50000) (K := 128) (N := 128) (V c main_v31) (V c main_arg8) :=
  (dat4 V c).arrAt_eq_of_cover 2 _ (fun t _ => flushed4 V c t) (cover4)

end Cert.KernelIdeal.Layers

end
-- ==== Proof.Region5.lean ====
/-
  Region 5 of the kernel program, read as a whole-array function of the arrays the region finds.

  The region adds the bias and floors: its body adds the one-row bias to a block of rows of the aggregated array and
  takes the maximum with a zero splat, so the result array ends holding the aggregated array plus the bias row,
  floored at zero.

  The region's grid has ten points; point `t` holds rows `5000 t, …, 5000 t + 4999` of the first operand and of the
  result, and the whole second operand. What point `t` writes back is therefore rows `5000 t …` of the whole-array
  function (one point's computation, in the module of the bodies), the ten row blocks tile the result array, and so
  the array ends holding that function of the two operand arrays — whatever those arrays hold when the region starts.
-/
import proofs.«137852_j15393162789376_1_alg».proof.Proof.Gen.KernelIdeal.Frame
import proofs.«137852_j15393162789376_1_alg».proof.Proof.Body
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Gcn Cert.LibPlainDot Cert.LibRowBias

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: the first operand's and the result's block row is the point's number, every
    other block index is zero. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Every block row of the result is some point's. -/
theorem onto5 : ∀ q : Fin 10, ∃ t : Fin cfg5.N, win5_2.index t = ![q.val, 0] :=
  (by decide +kernel : ∀ q : Fin 10, ∃ t : Fin grid5.N, win5_2.index t = ![q.val, 0])

/-- WHAT POINT `t` WRITES BACK is its block of rows of the biased, floored array. -/
theorem flushed5 (c : Dev nD) (t : Fin cfg5.N) :
    (dat5 V c).flushed 2 t = ((cfg5.win 2).blk t).view.read (Elt Ideal)
      (rowBiasFloor (M := 50000) (N := 128) (Ideal.ofBits .f32 0x00000000#32) (V c main_v45) (V c main_v46)) := by
  show (cfg5.win 2).cut (grid5.coords t) ((dat5 V c).after 2 t) = _
  rw [after5_2]
  unfold out5_2
  rw [View.canon_unit_zero hz5]
  simp only [View.ld_unit_zero (S := S5000x128) hz5, View.ld_unit_zero (S := S1x128) hz5]
  obtain ⟨e0, e1, e2, e3, e4, e5⟩ := idx5 t
  funext j
  show maximumf (F := Ideal) (addf (F := Ideal) (shapeCast S5000x128 (iblk5 V c 0 t) shapeCasts_S5000x128_S5000x128)
      (broadcastTo S5000x128 (shapeCast S1x128 (iblk5 V c 1 t) shapeCasts_S1x128_S1x128) broadcasts_S1x128_S5000x128))
      (broadcast S5000x128 (Scalar.ofBits (F := Ideal) .f32 0x00000000#32)) j
    = rowBiasFloor (M := 50000) (N := 128) (Ideal.ofBits .f32 0x00000000#32) (V c main_v45) (V c main_v46) (((cfg5.win 2).blk t).view.emb j)
  refine biasFloor_rows (M := 50000) (R := 5000) (N := 128) (5000 * t.val) 0x00000000#32
    (V c main_v45) (V c main_v46) (iblk5 V c 0 t) (iblk5 V c 1 t)
    shapeCasts_S5000x128_S5000x128 shapeCasts_S1x128_S1x128 broadcasts_S1x128_S5000x128 ?_ ?_ j (((cfg5.win 2).blk t).view.emb j) ?_ ?_
  · intro y k hM
    show V c main_v45 (((cfg5.win 0).blk t).view.emb (ix2 y k)) = _
    refine congrArg (V c main_v45) (funext fun a => Fin.ext ?_)
    match a with
    | ⟨0, _⟩ => show win5_0.index t (0 : Fin 2) * 5000 + 1 * y.val = 5000 * t.val + y.val; omega
    | ⟨1, _⟩ => show win5_0.index t (1 : Fin 2) * 128 + 1 * k.val = k.val; omega
  · funext y
    show V c main_v46 (((cfg5.win 1).blk t).view.emb y) = V c main_v46 y
    refine congrArg (V c main_v46) (funext fun a => Fin.ext ?_)
    match a with
    | ⟨0, _⟩ => show win5_1.index t (0 : Fin 2) * 1 + 1 * (y 0).val = (y 0).val; omega
    | ⟨1, _⟩ => show win5_1.index t (1 : Fin 2) * 128 + 1 * (y 1).val = (y 1).val; omega
  · show win5_2.index t (0 : Fin 2) * 5000 + 1 * (j 0).val = 5000 * t.val + (j 0).val; omega
  · show win5_2.index t (1 : Fin 2) * 128 + 1 * (j 1).val = (j 1).val; omega

/-- An index of the result array is in point `t`'s block iff each coordinate is in the block's range on its axis. -/
theorem mem_blk5 (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v47).slice (win5_2.rect t)).set ↔ _
  rw [View.set_slice_whole, Rect.mem_set_unit]
  exact Iff.rfl

/-- The ten row blocks tile the result array: row `r` is in the block of point `r / 5000`. -/
theorem cover5 (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := onto5 ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- THE RESULT ARRAY after the region is the aggregated array plus the bias row, floored at zero. -/
theorem final5 (c : Dev nD) :
    (dat5 V c).arrAt 2 cfg5.N = rowBiasFloor (M := 50000) (N := 128) (Ideal.ofBits .f32 0x00000000#32) (V c main_v45) (V c main_v46) :=
  (dat5 V c).arrAt_eq_of_cover 2 _ (fun t _ => flushed5 V c t) (cover5)

end Cert.KernelIdeal.Layers

end
-- ==== Proof.Region6.lean ====
/-
  Region 6 of the kernel program, read as a whole-array function of the arrays the region finds.

  The region multiplies: its body (after a shape cast that changes nothing) rounds a block of rows of the features and the weight matrix to a narrower format
  (the identity on the extended reals) and multiplies them into a zero accumulator, so the result array ends holding
  the product of the features array and the weight matrix.

  The region's grid has ten points; point `t` holds rows `5000 t, …, 5000 t + 4999` of the first operand and of the
  result, and the whole second operand. What point `t` writes back is therefore rows `5000 t …` of the whole-array
  function (one point's computation, in the module of the bodies), the ten row blocks tile the result array, and so
  the array ends holding that function of the two operand arrays — whatever those arrays hold when the region starts.
-/
import proofs.«137852_j15393162789376_1_alg».proof.Proof.Gen.KernelIdeal.Frame
import proofs.«137852_j15393162789376_1_alg».proof.Proof.Body
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Gcn Cert.LibPlainDot Cert.LibRowBias

variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the grid: the first operand's and the result's block row is the point's number, every
    other block index is zero. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Every block row of the result is some point's. -/
theorem onto6 : ∀ q : Fin 10, ∃ t : Fin cfg6.N, win6_2.index t = ![q.val, 0] :=
  (by decide +kernel : ∀ q : Fin 10, ∃ t : Fin grid6.N, win6_2.index t = ![q.val, 0])

/-- WHAT POINT `t` WRITES BACK is its block of rows of the product of the two arrays the region finds. -/
theorem flushed6 (c : Dev nD) (t : Fin cfg6.N) :
    (dat6 V c).flushed 2 t = ((cfg6.win 2).blk t).view.read (Elt Ideal)
      (rowsTimes (M := 50000) (K := 128) (N := 64) (V c main_v47) (V c main_arg10)) := by
  show (cfg6.win 2).cut (grid6.coords t) ((dat6 V c).after 2 t) = _
  rw [after6_2]
  unfold out6_2
  rw [View.canon_unit_zero hz6]
  simp only [View.ld_unit_zero (S := S5000x128) hz6, View.ld_unit_zero (S := S128x64) hz6]
  obtain ⟨e0, e1, e2, e3, e4, e5⟩ := idx6 t
  funext j
  show matmul (F := Ideal) dot_S5000x128_S128x64_S5000x64_1_0_0_1_n_n none (truncf (F := Ideal) .bf16 (shapeCast S5000x128 (iblk6 V c 0 t) shapeCasts_S5000x128_S5000x128) bitsLt_bf16_f32)
      (truncf (F := Ideal) .bf16 (iblk6 V c 1 t) bitsLt_bf16_f32) (constant S5000x64 .f32 0x00000000#32) j
    = rowsTimes (M := 50000) (K := 128) (N := 64) (V c main_v47) (V c main_arg10) (((cfg6.win 2).blk t).view.emb j)
  refine product_rows (M := 50000) (R := 5000) (K := 128) (N := 64) (5000 * t.val)
    dot_S5000x128_S128x64_S5000x64_1_0_0_1_n_n rfl (V c main_v47) (V c main_arg10) (shapeCast S5000x128 (iblk6 V c 0 t) shapeCasts_S5000x128_S5000x128) (iblk6 V c 1 t)
    bitsLt_bf16_f32 bitsLt_bf16_f32 ?_ ?_ j (((cfg6.win 2).blk t).view.emb j) ?_ ?_
  · intro y k hM
    refine (congrFun (shapeCast_self (s := S5000x128) (iblk6 V c 0 t) shapeCasts_S5000x128_S5000x128) (ix2 y k)).trans ?_
    show V c main_v47 (((cfg6.win 0).blk t).view.emb (ix2 y k)) = _
    refine congrArg (V c main_v47) (funext fun a => Fin.ext ?_)
    match a with
    | ⟨0, _⟩ => show win6_0.index t (0 : Fin 2) * 5000 + 1 * y.val = 5000 * t.val + y.val; omega
    | ⟨1, _⟩ => show win6_0.index t (1 : Fin 2) * 128 + 1 * k.val = k.val; omega
  · funext y
    show V c main_arg10 (((cfg6.win 1).blk t).view.emb y) = V c main_arg10 y
    refine congrArg (V c main_arg10) (funext fun a => Fin.ext ?_)
    match a with
    | ⟨0, _⟩ => show win6_1.index t (0 : Fin 2) * 128 + 1 * (y 0).val = (y 0).val; omega
    | ⟨1, _⟩ => show win6_1.index t (1 : Fin 2) * 64 + 1 * (y 1).val = (y 1).val; omega
  · show win6_2.index t (0 : Fin 2) * 5000 + 1 * (j 0).val = 5000 * t.val + (j 0).val; omega
  · show win6_2.index t (1 : Fin 2) * 64 + 1 * (j 1).val = (j 1).val; omega

/-- An index of the result array is in point `t`'s block iff each coordinate is in the block's range on its axis. -/
theorem mem_blk6 (t : Fin cfg6.N) (i : S50000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v48).slice (win6_2.rect t)).set ↔ _
  rw [View.set_slice_whole, Rect.mem_set_unit]
  exact Iff.rfl

/-- The ten row blocks tile the result array: row `r` is in the block of point `r / 5000`. -/
theorem cover6 (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  obtain ⟨t, ht⟩ := onto6 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- THE RESULT ARRAY after the region is the product of the two arrays the region finds. -/
theorem final6 (c : Dev nD) :
    (dat6 V c).arrAt 2 cfg6.N = rowsTimes (M := 50000) (K := 128) (N := 64) (V c main_v47) (V c main_arg10) :=
  (dat6 V c).arrAt_eq_of_cover 2 _ (fun t _ => flushed6 V c t) (cover6)

end Cert.KernelIdeal.Layers

end
-- ==== Proof.Region7.lean ====
/-
  Region 7 of the kernel program, read as a whole-array function of the arrays the region finds.

  The region adds the bias: its body adds the one-row bias to a block of rows of the aggregated array, so the result
  array ends holding the aggregated array plus the bias row.

  The region's grid has ten points; point `t` holds rows `5000 t, …, 5000 t + 4999` of the first operand and of the
  result, and the whole second operand. What point `t` writes back is therefore rows `5000 t …` of the whole-array
  function (one point's computation, in the module of the bodies), the ten row blocks tile the result array, and so
  the array ends holding that function of the two operand arrays — whatever those arrays hold when the region starts.
-/
import proofs.«137852_j15393162789376_1_alg».proof.Proof.Gen.KernelIdeal.Frame
import proofs.«137852_j15393162789376_1_alg».proof.Proof.Body
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Gcn Cert.LibPlainDot Cert.LibRowBias

variable (V : (c : Dev nD) → (b : Ref sig .tc) → Buf (Elt Ideal) ((c : Thread nD τ).loc b))

theorem hz7 : (![0, 0] : Fin 2 → Nat) = fun _ => 0 := funext fun a => by fin_cases a <;> rfl

/-- The printed index maps over the grid: the first operand's and the result's block row is the point's number, every
    other block index is zero. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- Every block row of the result is some point's. -/
theorem onto7 : ∀ q : Fin 10, ∃ t : Fin cfg7.N, win7_2.index t = ![q.val, 0] :=
  (by decide +kernel : ∀ q : Fin 10, ∃ t : Fin grid7.N, win7_2.index t = ![q.val, 0])

/-- WHAT POINT `t` WRITES BACK is its block of rows of the biased array. -/
theorem flushed7 (c : Dev nD) (t : Fin cfg7.N) :
    (dat7 V c).flushed 2 t = ((cfg7.win 2).blk t).view.read (Elt Ideal)
      (rowBias (M := 50000) (N := 64) (V c main_v61) (V c main_v62)) := by
  show (cfg7.win 2).cut (grid7.coords t) ((dat7 V c).after 2 t) = _
  rw [after7_2]
  unfold out7_2
  rw [View.canon_unit_zero hz7]
  simp only [View.ld_unit_zero (S := S5000x64) hz7, View.ld_unit_zero (S := S1x64) hz7]
  obtain ⟨e0, e1, e2, e3, e4, e5⟩ := idx7 t
  funext j
  show addf (F := Ideal) (shapeCast S5000x64 (iblk7 V c 0 t) shapeCasts_S5000x64_S5000x64)
      (broadcastTo S5000x64 (shapeCast S1x64 (iblk7 V c 1 t) shapeCasts_S1x64_S1x64) broadcasts_S1x64_S5000x64) j
    = rowBias (M := 50000) (N := 64) (V c main_v61) (V c main_v62) (((cfg7.win 2).blk t).view.emb j)
  refine biasPlain_rows (M := 50000) (R := 5000) (N := 64) (5000 * t.val)
    (V c main_v61) (V c main_v62) (iblk7 V c 0 t) (iblk7 V c 1 t)
    shapeCasts_S5000x64_S5000x64 shapeCasts_S1x64_S1x64 broadcasts_S1x64_S5000x64 ?_ ?_ j (((cfg7.win 2).blk t).view.emb j) ?_ ?_
  · intro y k hM
    show V c main_v61 (((cfg7.win 0).blk t).view.emb (ix2 y k)) = _
    refine congrArg (V c main_v61) (funext fun a => Fin.ext ?_)
    match a with
    | ⟨0, _⟩ => show win7_0.index t (0 : Fin 2) * 5000 + 1 * y.val = 5000 * t.val + y.val; omega
    | ⟨1, _⟩ => show win7_0.index t (1 : Fin 2) * 64 + 1 * k.val = k.val; omega
  · funext y
    show V c main_v62 (((cfg7.win 1).blk t).view.emb y) = V c main_v62 y
    refine congrArg (V c main_v62) (funext fun a => Fin.ext ?_)
    match a with
    | ⟨0, _⟩ => show win7_1.index t (0 : Fin 2) * 1 + 1 * (y 0).val = (y 0).val; omega
    | ⟨1, _⟩ => show win7_1.index t (1 : Fin 2) * 64 + 1 * (y 1).val = (y 1).val; omega
  · show win7_2.index t (0 : Fin 2) * 5000 + 1 * (j 0).val = 5000 * t.val + (j 0).val; omega
  · show win7_2.index t (1 : Fin 2) * 64 + 1 * (j 1).val = (j 1).val; omega

/-- An index of the result array is in point `t`'s block iff each coordinate is in the block's range on its axis. -/
theorem mem_blk7 (t : Fin cfg7.N) (i : S50000x64.Idx) :
    i ∈ ((cfg7.win 2).blk t).view.set ↔ ∀ a : Fin 2, win7_2.index t a * S5000x64.size a ≤ (i a).val ∧ (i a).val < win7_2.index t a * S5000x64.size a + S5000x64.size a := by
  show i ∈ ((View.whole main_v63).slice (win7_2.rect t)).set ↔ _
  rw [View.set_slice_whole, Rect.mem_set_unit]
  exact Iff.rfl

/-- The ten row blocks tile the result array: row `r` is in the block of point `r / 5000`. -/
theorem cover7 (i : S50000x64.Idx) :
    ∃ t : Fin cfg7.N, (cfg7.win 2).flush t = true ∧ i ∈ ((cfg7.win 2).blk t).view.set := by
  have hi0 : (i 0).val < 50000 := (i 0).isLt
  have hi1 : (i 1).val < 64 := (i 1).isLt
  obtain ⟨t, ht⟩ := onto7 ⟨(i 0).val / 5000, by omega⟩
  have q0 : win7_2.index t (0 : Fin 2) = (i 0).val / 5000 := congrFun ht 0
  have q1 : win7_2.index t (1 : Fin 2) = 0 := congrFun ht 1
  refine ⟨t, flush7_2 t, ?_⟩
  rw [mem_blk7]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 64 ≤ (i 1).val ∧ (i 1).val < win7_2.index t (1 : Fin 2) * 64 + 64; omega

/-- THE RESULT ARRAY after the region is the aggregated array plus the bias row. -/
theorem final7 (c : Dev nD) :
    (dat7 V c).arrAt 2 cfg7.N = rowBias (M := 50000) (N := 64) (V c main_v61) (V c main_v62) :=
  (dat7 V c).arrAt_eq_of_cover 2 _ (fun t _ => flushed7 V c t) (cover7)

end Cert.KernelIdeal.Layers

end
-- ==== Proof.KernelArgs.lean ====
/-
  The kernel program's argument arrays, read at the boundaries between its regions and its stretches of host
  operations.

  No host operation writes an argument, and a region writes only its result array; so an argument read at a boundary
  holds what it held at launch, for every boundary up to the one where the program reads it.
-/
import proofs.«137852_j15393162789376_1_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- A stretch of host operations leaves a buffer none of them writes as it found it. -/
local macro "not_written " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem arg1_W1 (c : Dev nD) : W1 m ρ c (Proc.devRef .tc main_arg1) = m ((c : Thread nD τ).loc main_arg1) :=
  ((W1_of_ne m ρ c main_arg1 (by decide)) : W1 m ρ c (Proc.devRef .tc main_arg1) = W0 m ρ c (Proc.devRef .tc main_arg1)).trans rfl
theorem arg1_W2 (c : Dev nD) : W2 m ρ c (Proc.devRef .tc main_arg1) = m ((c : Thread nD τ).loc main_arg1) :=
  ((by not_written hostOps1) : W2 m ρ c (Proc.devRef .tc main_arg1) = W1 m ρ c (Proc.devRef .tc main_arg1)).trans (arg1_W1 m ρ c)
theorem arg1_W3 (c : Dev nD) : W3 m ρ c (Proc.devRef .tc main_arg1) = m ((c : Thread nD τ).loc main_arg1) :=
  ((W3_of_ne m ρ c main_arg1 (by decide)) : W3 m ρ c (Proc.devRef .tc main_arg1) = W2 m ρ c (Proc.devRef .tc main_arg1)).trans (arg1_W2 m ρ c)
theorem arg1_W4 (c : Dev nD) : W4 m ρ c (Proc.devRef .tc main_arg1) = m ((c : Thread nD τ).loc main_arg1) :=
  ((W4_of_ne m ρ c main_arg1 (by decide)) : W4 m ρ c (Proc.devRef .tc main_arg1) = W3 m ρ c (Proc.devRef .tc main_arg1)).trans (arg1_W3 m ρ c)
theorem arg1_W5 (c : Dev nD) : W5 m ρ c (Proc.devRef .tc main_arg1) = m ((c : Thread nD τ).loc main_arg1) :=
  ((by not_written hostOps3) : W5 m ρ c (Proc.devRef .tc main_arg1) = W4 m ρ c (Proc.devRef .tc main_arg1)).trans (arg1_W4 m ρ c)
theorem arg1_W6 (c : Dev nD) : W6 m ρ c (Proc.devRef .tc main_arg1) = m ((c : Thread nD τ).loc main_arg1) :=
  ((W6_of_ne m ρ c main_arg1 (by decide)) : W6 m ρ c (Proc.devRef .tc main_arg1) = W5 m ρ c (Proc.devRef .tc main_arg1)).trans (arg1_W5 m ρ c)
theorem arg1_W7 (c : Dev nD) : W7 m ρ c (Proc.devRef .tc main_arg1) = m ((c : Thread nD τ).loc main_arg1) :=
  ((W7_of_ne m ρ c main_arg1 (by decide)) : W7 m ρ c (Proc.devRef .tc main_arg1) = W6 m ρ c (Proc.devRef .tc main_arg1)).trans (arg1_W6 m ρ c)
theorem arg1_W8 (c : Dev nD) : W8 m ρ c (Proc.devRef .tc main_arg1) = m ((c : Thread nD τ).loc main_arg1) :=
  ((by not_written hostOps5) : W8 m ρ c (Proc.devRef .tc main_arg1) = W7 m ρ c (Proc.devRef .tc main_arg1)).trans (arg1_W7 m ρ c)
theorem arg1_W9 (c : Dev nD) : W9 m ρ c (Proc.devRef .tc main_arg1) = m ((c : Thread nD τ).loc main_arg1) :=
  ((W9_of_ne m ρ c main_arg1 (by decide)) : W9 m ρ c (Proc.devRef .tc main_arg1) = W8 m ρ c (Proc.devRef .tc main_arg1)).trans (arg1_W8 m ρ c)
theorem arg1_W10 (c : Dev nD) : W10 m ρ c (Proc.devRef .tc main_arg1) = m ((c : Thread nD τ).loc main_arg1) :=
  ((W10_of_ne m ρ c main_arg1 (by decide)) : W10 m ρ c (Proc.devRef .tc main_arg1) = W9 m ρ c (Proc.devRef .tc main_arg1)).trans (arg1_W9 m ρ c)

theorem arg2_W1 (c : Dev nD) : W1 m ρ c (Proc.devRef .tc main_arg2) = m ((c : Thread nD τ).loc main_arg2) :=
  ((W1_of_ne m ρ c main_arg2 (by decide)) : W1 m ρ c (Proc.devRef .tc main_arg2) = W0 m ρ c (Proc.devRef .tc main_arg2)).trans rfl
theorem arg2_W2 (c : Dev nD) : W2 m ρ c (Proc.devRef .tc main_arg2) = m ((c : Thread nD τ).loc main_arg2) :=
  ((by not_written hostOps1) : W2 m ρ c (Proc.devRef .tc main_arg2) = W1 m ρ c (Proc.devRef .tc main_arg2)).trans (arg2_W1 m ρ c)
theorem arg2_W3 (c : Dev nD) : W3 m ρ c (Proc.devRef .tc main_arg2) = m ((c : Thread nD τ).loc main_arg2) :=
  ((W3_of_ne m ρ c main_arg2 (by decide)) : W3 m ρ c (Proc.devRef .tc main_arg2) = W2 m ρ c (Proc.devRef .tc main_arg2)).trans (arg2_W2 m ρ c)
theorem arg2_W4 (c : Dev nD) : W4 m ρ c (Proc.devRef .tc main_arg2) = m ((c : Thread nD τ).loc main_arg2) :=
  ((W4_of_ne m ρ c main_arg2 (by decide)) : W4 m ρ c (Proc.devRef .tc main_arg2) = W3 m ρ c (Proc.devRef .tc main_arg2)).trans (arg2_W3 m ρ c)
theorem arg2_W5 (c : Dev nD) : W5 m ρ c (Proc.devRef .tc main_arg2) = m ((c : Thread nD τ).loc main_arg2) :=
  ((by not_written hostOps3) : W5 m ρ c (Proc.devRef .tc main_arg2) = W4 m ρ c (Proc.devRef .tc main_arg2)).trans (arg2_W4 m ρ c)
theorem arg2_W6 (c : Dev nD) : W6 m ρ c (Proc.devRef .tc main_arg2) = m ((c : Thread nD τ).loc main_arg2) :=
  ((W6_of_ne m ρ c main_arg2 (by decide)) : W6 m ρ c (Proc.devRef .tc main_arg2) = W5 m ρ c (Proc.devRef .tc main_arg2)).trans (arg2_W5 m ρ c)
theorem arg2_W7 (c : Dev nD) : W7 m ρ c (Proc.devRef .tc main_arg2) = m ((c : Thread nD τ).loc main_arg2) :=
  ((W7_of_ne m ρ c main_arg2 (by decide)) : W7 m ρ c (Proc.devRef .tc main_arg2) = W6 m ρ c (Proc.devRef .tc main_arg2)).trans (arg2_W6 m ρ c)
theorem arg2_W8 (c : Dev nD) : W8 m ρ c (Proc.devRef .tc main_arg2) = m ((c : Thread nD τ).loc main_arg2) :=
  ((by not_written hostOps5) : W8 m ρ c (Proc.devRef .tc main_arg2) = W7 m ρ c (Proc.devRef .tc main_arg2)).trans (arg2_W7 m ρ c)
theorem arg2_W9 (c : Dev nD) : W9 m ρ c (Proc.devRef .tc main_arg2) = m ((c : Thread nD τ).loc main_arg2) :=
  ((W9_of_ne m ρ c main_arg2 (by decide)) : W9 m ρ c (Proc.devRef .tc main_arg2) = W8 m ρ c (Proc.devRef .tc main_arg2)).trans (arg2_W8 m ρ c)
theorem arg2_W10 (c : Dev nD) : W10 m ρ c (Proc.devRef .tc main_arg2) = m ((c : Thread nD τ).loc main_arg2) :=
  ((W10_of_ne m ρ c main_arg2 (by decide)) : W10 m ρ c (Proc.devRef .tc main_arg2) = W9 m ρ c (Proc.devRef .tc main_arg2)).trans (arg2_W9 m ρ c)

theorem arg3_W1 (c : Dev nD) : W1 m ρ c (Proc.devRef .tc main_arg3) = m ((c : Thread nD τ).loc main_arg3) :=
  ((W1_of_ne m ρ c main_arg3 (by decide)) : W1 m ρ c (Proc.devRef .tc main_arg3) = W0 m ρ c (Proc.devRef .tc main_arg3)).trans rfl
theorem arg3_W2 (c : Dev nD) : W2 m ρ c (Proc.devRef .tc main_arg3) = m ((c : Thread nD τ).loc main_arg3) :=
  ((by not_written hostOps1) : W2 m ρ c (Proc.devRef .tc main_arg3) = W1 m ρ c (Proc.devRef .tc main_arg3)).trans (arg3_W1 m ρ c)
theorem arg3_W3 (c : Dev nD) : W3 m ρ c (Proc.devRef .tc main_arg3) = m ((c : Thread nD τ).loc main_arg3) :=
  ((W3_of_ne m ρ c main_arg3 (by decide)) : W3 m ρ c (Proc.devRef .tc main_arg3) = W2 m ρ c (Proc.devRef .tc main_arg3)).trans (arg3_W2 m ρ c)
theorem arg3_W4 (c : Dev nD) : W4 m ρ c (Proc.devRef .tc main_arg3) = m ((c : Thread nD τ).loc main_arg3) :=
  ((W4_of_ne m ρ c main_arg3 (by decide)) : W4 m ρ c (Proc.devRef .tc main_arg3) = W3 m ρ c (Proc.devRef .tc main_arg3)).trans (arg3_W3 m ρ c)
theorem arg3_W5 (c : Dev nD) : W5 m ρ c (Proc.devRef .tc main_arg3) = m ((c : Thread nD τ).loc main_arg3) :=
  ((by not_written hostOps3) : W5 m ρ c (Proc.devRef .tc main_arg3) = W4 m ρ c (Proc.devRef .tc main_arg3)).trans (arg3_W4 m ρ c)
theorem arg3_W6 (c : Dev nD) : W6 m ρ c (Proc.devRef .tc main_arg3) = m ((c : Thread nD τ).loc main_arg3) :=
  ((W6_of_ne m ρ c main_arg3 (by decide)) : W6 m ρ c (Proc.devRef .tc main_arg3) = W5 m ρ c (Proc.devRef .tc main_arg3)).trans (arg3_W5 m ρ c)
theorem arg3_W7 (c : Dev nD) : W7 m ρ c (Proc.devRef .tc main_arg3) = m ((c : Thread nD τ).loc main_arg3) :=
  ((W7_of_ne m ρ c main_arg3 (by decide)) : W7 m ρ c (Proc.devRef .tc main_arg3) = W6 m ρ c (Proc.devRef .tc main_arg3)).trans (arg3_W6 m ρ c)
theorem arg3_W8 (c : Dev nD) : W8 m ρ c (Proc.devRef .tc main_arg3) = m ((c : Thread nD τ).loc main_arg3) :=
  ((by not_written hostOps5) : W8 m ρ c (Proc.devRef .tc main_arg3) = W7 m ρ c (Proc.devRef .tc main_arg3)).trans (arg3_W7 m ρ c)
theorem arg3_W9 (c : Dev nD) : W9 m ρ c (Proc.devRef .tc main_arg3) = m ((c : Thread nD τ).loc main_arg3) :=
  ((W9_of_ne m ρ c main_arg3 (by decide)) : W9 m ρ c (Proc.devRef .tc main_arg3) = W8 m ρ c (Proc.devRef .tc main_arg3)).trans (arg3_W8 m ρ c)
theorem arg3_W10 (c : Dev nD) : W10 m ρ c (Proc.devRef .tc main_arg3) = m ((c : Thread nD τ).loc main_arg3) :=
  ((W10_of_ne m ρ c main_arg3 (by decide)) : W10 m ρ c (Proc.devRef .tc main_arg3) = W9 m ρ c (Proc.devRef .tc main_arg3)).trans (arg3_W9 m ρ c)

theorem arg5_W1 (c : Dev nD) : W1 m ρ c (Proc.devRef .tc main_arg5) = m ((c : Thread nD τ).loc main_arg5) :=
  ((W1_of_ne m ρ c main_arg5 (by decide)) : W1 m ρ c (Proc.devRef .tc main_arg5) = W0 m ρ c (Proc.devRef .tc main_arg5)).trans rfl

theorem arg6_W1 (c : Dev nD) : W1 m ρ c (Proc.devRef .tc main_arg6) = m ((c : Thread nD τ).loc main_arg6) :=
  ((W1_of_ne m ρ c main_arg6 (by decide)) : W1 m ρ c (Proc.devRef .tc main_arg6) = W0 m ρ c (Proc.devRef .tc main_arg6)).trans rfl
theorem arg6_W2 (c : Dev nD) : W2 m ρ c (Proc.devRef .tc main_arg6) = m ((c : Thread nD τ).loc main_arg6) :=
  ((by not_written hostOps1) : W2 m ρ c (Proc.devRef .tc main_arg6) = W1 m ρ c (Proc.devRef .tc main_arg6)).trans (arg6_W1 m ρ c)
theorem arg6_W3 (c : Dev nD) : W3 m ρ c (Proc.devRef .tc main_arg6) = m ((c : Thread nD τ).loc main_arg6) :=
  ((W3_of_ne m ρ c main_arg6 (by decide)) : W3 m ρ c (Proc.devRef .tc main_arg6) = W2 m ρ c (Proc.devRef .tc main_arg6)).trans (arg6_W2 m ρ c)

theorem arg7_W1 (c : Dev nD) : W1 m ρ c (Proc.devRef .tc main_arg7) = m ((c : Thread nD τ).loc main_arg7) :=
  ((W1_of_ne m ρ c main_arg7 (by decide)) : W1 m ρ c (Proc.devRef .tc main_arg7) = W0 m ρ c (Proc.devRef .tc main_arg7)).trans rfl
theorem arg7_W2 (c : Dev nD) : W2 m ρ c (Proc.devRef .tc main_arg7) = m ((c : Thread nD τ).loc main_arg7) :=
  ((by not_written hostOps1) : W2 m ρ c (Proc.devRef .tc main_arg7) = W1 m ρ c (Proc.devRef .tc main_arg7)).trans (arg7_W1 m ρ c)
theorem arg7_W3 (c : Dev nD) : W3 m ρ c (Proc.devRef .tc main_arg7) = m ((c : Thread nD τ).loc main_arg7) :=
  ((W3_of_ne m ρ c main_arg7 (by decide)) : W3 m ρ c (Proc.devRef .tc main_arg7) = W2 m ρ c (Proc.devRef .tc main_arg7)).trans (arg7_W2 m ρ c)
theorem arg7_W4 (c : Dev nD) : W4 m ρ c (Proc.devRef .tc main_arg7) = m ((c : Thread nD τ).loc main_arg7) :=
  ((W4_of_ne m ρ c main_arg7 (by decide)) : W4 m ρ c (Proc.devRef .tc main_arg7) = W3 m ρ c (Proc.devRef .tc main_arg7)).trans (arg7_W3 m ρ c)

theorem arg8_W1 (c : Dev nD) : W1 m ρ c (Proc.devRef .tc main_arg8) = m ((c : Thread nD τ).loc main_arg8) :=
  ((W1_of_ne m ρ c main_arg8 (by decide)) : W1 m ρ c (Proc.devRef .tc main_arg8) = W0 m ρ c (Proc.devRef .tc main_arg8)).trans rfl
theorem arg8_W2 (c : Dev nD) : W2 m ρ c (Proc.devRef .tc main_arg8) = m ((c : Thread nD τ).loc main_arg8) :=
  ((by not_written hostOps1) : W2 m ρ c (Proc.devRef .tc main_arg8) = W1 m ρ c (Proc.devRef .tc main_arg8)).trans (arg8_W1 m ρ c)
theorem arg8_W3 (c : Dev nD) : W3 m ρ c (Proc.devRef .tc main_arg8) = m ((c : Thread nD τ).loc main_arg8) :=
  ((W3_of_ne m ρ c main_arg8 (by decide)) : W3 m ρ c (Proc.devRef .tc main_arg8) = W2 m ρ c (Proc.devRef .tc main_arg8)).trans (arg8_W2 m ρ c)
theorem arg8_W4 (c : Dev nD) : W4 m ρ c (Proc.devRef .tc main_arg8) = m ((c : Thread nD τ).loc main_arg8) :=
  ((W4_of_ne m ρ c main_arg8 (by decide)) : W4 m ρ c (Proc.devRef .tc main_arg8) = W3 m ρ c (Proc.devRef .tc main_arg8)).trans (arg8_W3 m ρ c)
theorem arg8_W5 (c : Dev nD) : W5 m ρ c (Proc.devRef .tc main_arg8) = m ((c : Thread nD τ).loc main_arg8) :=
  ((by not_written hostOps3) : W5 m ρ c (Proc.devRef .tc main_arg8) = W4 m ρ c (Proc.devRef .tc main_arg8)).trans (arg8_W4 m ρ c)
theorem arg8_W6 (c : Dev nD) : W6 m ρ c (Proc.devRef .tc main_arg8) = m ((c : Thread nD τ).loc main_arg8) :=
  ((W6_of_ne m ρ c main_arg8 (by decide)) : W6 m ρ c (Proc.devRef .tc main_arg8) = W5 m ρ c (Proc.devRef .tc main_arg8)).trans (arg8_W5 m ρ c)

theorem arg9_W1 (c : Dev nD) : W1 m ρ c (Proc.devRef .tc main_arg9) = m ((c : Thread nD τ).loc main_arg9) :=
  ((W1_of_ne m ρ c main_arg9 (by decide)) : W1 m ρ c (Proc.devRef .tc main_arg9) = W0 m ρ c (Proc.devRef .tc main_arg9)).trans rfl
theorem arg9_W2 (c : Dev nD) : W2 m ρ c (Proc.devRef .tc main_arg9) = m ((c : Thread nD τ).loc main_arg9) :=
  ((by not_written hostOps1) : W2 m ρ c (Proc.devRef .tc main_arg9) = W1 m ρ c (Proc.devRef .tc main_arg9)).trans (arg9_W1 m ρ c)
theorem arg9_W3 (c : Dev nD) : W3 m ρ c (Proc.devRef .tc main_arg9) = m ((c : Thread nD τ).loc main_arg9) :=
  ((W3_of_ne m ρ c main_arg9 (by decide)) : W3 m ρ c (Proc.devRef .tc main_arg9) = W2 m ρ c (Proc.devRef .tc main_arg9)).trans (arg9_W2 m ρ c)
theorem arg9_W4 (c : Dev nD) : W4 m ρ c (Proc.devRef .tc main_arg9) = m ((c : Thread nD τ).loc main_arg9) :=
  ((W4_of_ne m ρ c main_arg9 (by decide)) : W4 m ρ c (Proc.devRef .tc main_arg9) = W3 m ρ c (Proc.devRef .tc main_arg9)).trans (arg9_W3 m ρ c)
theorem arg9_W5 (c : Dev nD) : W5 m ρ c (Proc.devRef .tc main_arg9) = m ((c : Thread nD τ).loc main_arg9) :=
  ((by not_written hostOps3) : W5 m ρ c (Proc.devRef .tc main_arg9) = W4 m ρ c (Proc.devRef .tc main_arg9)).trans (arg9_W4 m ρ c)
theorem arg9_W6 (c : Dev nD) : W6 m ρ c (Proc.devRef .tc main_arg9) = m ((c : Thread nD τ).loc main_arg9) :=
  ((W6_of_ne m ρ c main_arg9 (by decide)) : W6 m ρ c (Proc.devRef .tc main_arg9) = W5 m ρ c (Proc.devRef .tc main_arg9)).trans (arg9_W5 m ρ c)
theorem arg9_W7 (c : Dev nD) : W7 m ρ c (Proc.devRef .tc main_arg9) = m ((c : Thread nD τ).loc main_arg9) :=
  ((W7_of_ne m ρ c main_arg9 (by decide)) : W7 m ρ c (Proc.devRef .tc main_arg9) = W6 m ρ c (Proc.devRef .tc main_arg9)).trans (arg9_W6 m ρ c)

theorem arg10_W1 (c : Dev nD) : W1 m ρ c (Proc.devRef .tc main_arg10) = m ((c : Thread nD τ).loc main_arg10) :=
  ((W1_of_ne m ρ c main_arg10 (by decide)) : W1 m ρ c (Proc.devRef .tc main_arg10) = W0 m ρ c (Proc.devRef .tc main_arg10)).trans rfl
theorem arg10_W2 (c : Dev nD) : W2 m ρ c (Proc.devRef .tc main_arg10) = m ((c : Thread nD τ).loc main_arg10) :=
  ((by not_written hostOps1) : W2 m ρ c (Proc.devRef .tc main_arg10) = W1 m ρ c (Proc.devRef .tc main_arg10)).trans (arg10_W1 m ρ c)
theorem arg10_W3 (c : Dev nD) : W3 m ρ c (Proc.devRef .tc main_arg10) = m ((c : Thread nD τ).loc main_arg10) :=
  ((W3_of_ne m ρ c main_arg10 (by decide)) : W3 m ρ c (Proc.devRef .tc main_arg10) = W2 m ρ c (Proc.devRef .tc main_arg10)).trans (arg10_W2 m ρ c)
theorem arg10_W4 (c : Dev nD) : W4 m ρ c (Proc.devRef .tc main_arg10) = m ((c : Thread nD τ).loc main_arg10) :=
  ((W4_of_ne m ρ c main_arg10 (by decide)) : W4 m ρ c (Proc.devRef .tc main_arg10) = W3 m ρ c (Proc.devRef .tc main_arg10)).trans (arg10_W3 m ρ c)
theorem arg10_W5 (c : Dev nD) : W5 m ρ c (Proc.devRef .tc main_arg10) = m ((c : Thread nD τ).loc main_arg10) :=
  ((by not_written hostOps3) : W5 m ρ c (Proc.devRef .tc main_arg10) = W4 m ρ c (Proc.devRef .tc main_arg10)).trans (arg10_W4 m ρ c)
theorem arg10_W6 (c : Dev nD) : W6 m ρ c (Proc.devRef .tc main_arg10) = m ((c : Thread nD τ).loc main_arg10) :=
  ((W6_of_ne m ρ c main_arg10 (by decide)) : W6 m ρ c (Proc.devRef .tc main_arg10) = W5 m ρ c (Proc.devRef .tc main_arg10)).trans (arg10_W5 m ρ c)
theorem arg10_W7 (c : Dev nD) : W7 m ρ c (Proc.devRef .tc main_arg10) = m ((c : Thread nD τ).loc main_arg10) :=
  ((W7_of_ne m ρ c main_arg10 (by decide)) : W7 m ρ c (Proc.devRef .tc main_arg10) = W6 m ρ c (Proc.devRef .tc main_arg10)).trans (arg10_W6 m ρ c)
theorem arg10_W8 (c : Dev nD) : W8 m ρ c (Proc.devRef .tc main_arg10) = m ((c : Thread nD τ).loc main_arg10) :=
  ((by not_written hostOps5) : W8 m ρ c (Proc.devRef .tc main_arg10) = W7 m ρ c (Proc.devRef .tc main_arg10)).trans (arg10_W7 m ρ c)
theorem arg10_W9 (c : Dev nD) : W9 m ρ c (Proc.devRef .tc main_arg10) = m ((c : Thread nD τ).loc main_arg10) :=
  ((W9_of_ne m ρ c main_arg10 (by decide)) : W9 m ρ c (Proc.devRef .tc main_arg10) = W8 m ρ c (Proc.devRef .tc main_arg10)).trans (arg10_W8 m ρ c)

theorem arg11_W1 (c : Dev nD) : W1 m ρ c (Proc.devRef .tc main_arg11) = m ((c : Thread nD τ).loc main_arg11) :=
  ((W1_of_ne m ρ c main_arg11 (by decide)) : W1 m ρ c (Proc.devRef .tc main_arg11) = W0 m ρ c (Proc.devRef .tc main_arg11)).trans rfl
theorem arg11_W2 (c : Dev nD) : W2 m ρ c (Proc.devRef .tc main_arg11) = m ((c : Thread nD τ).loc main_arg11) :=
  ((by not_written hostOps1) : W2 m ρ c (Proc.devRef .tc main_arg11) = W1 m ρ c (Proc.devRef .tc main_arg11)).trans (arg11_W1 m ρ c)
theorem arg11_W3 (c : Dev nD) : W3 m ρ c (Proc.devRef .tc main_arg11) = m ((c : Thread nD τ).loc main_arg11) :=
  ((W3_of_ne m ρ c main_arg11 (by decide)) : W3 m ρ c (Proc.devRef .tc main_arg11) = W2 m ρ c (Proc.devRef .tc main_arg11)).trans (arg11_W2 m ρ c)
theorem arg11_W4 (c : Dev nD) : W4 m ρ c (Proc.devRef .tc main_arg11) = m ((c : Thread nD τ).loc main_arg11) :=
  ((W4_of_ne m ρ c main_arg11 (by decide)) : W4 m ρ c (Proc.devRef .tc main_arg11) = W3 m ρ c (Proc.devRef .tc main_arg11)).trans (arg11_W3 m ρ c)
theorem arg11_W5 (c : Dev nD) : W5 m ρ c (Proc.devRef .tc main_arg11) = m ((c : Thread nD τ).loc main_arg11) :=
  ((by not_written hostOps3) : W5 m ρ c (Proc.devRef .tc main_arg11) = W4 m ρ c (Proc.devRef .tc main_arg11)).trans (arg11_W4 m ρ c)
theorem arg11_W6 (c : Dev nD) : W6 m ρ c (Proc.devRef .tc main_arg11) = m ((c : Thread nD τ).loc main_arg11) :=
  ((W6_of_ne m ρ c main_arg11 (by decide)) : W6 m ρ c (Proc.devRef .tc main_arg11) = W5 m ρ c (Proc.devRef .tc main_arg11)).trans (arg11_W5 m ρ c)
theorem arg11_W7 (c : Dev nD) : W7 m ρ c (Proc.devRef .tc main_arg11) = m ((c : Thread nD τ).loc main_arg11) :=
  ((W7_of_ne m ρ c main_arg11 (by decide)) : W7 m ρ c (Proc.devRef .tc main_arg11) = W6 m ρ c (Proc.devRef .tc main_arg11)).trans (arg11_W6 m ρ c)
theorem arg11_W8 (c : Dev nD) : W8 m ρ c (Proc.devRef .tc main_arg11) = m ((c : Thread nD τ).loc main_arg11) :=
  ((by not_written hostOps5) : W8 m ρ c (Proc.devRef .tc main_arg11) = W7 m ρ c (Proc.devRef .tc main_arg11)).trans (arg11_W7 m ρ c)
theorem arg11_W9 (c : Dev nD) : W9 m ρ c (Proc.devRef .tc main_arg11) = m ((c : Thread nD τ).loc main_arg11) :=
  ((W9_of_ne m ρ c main_arg11 (by decide)) : W9 m ρ c (Proc.devRef .tc main_arg11) = W8 m ρ c (Proc.devRef .tc main_arg11)).trans (arg11_W8 m ρ c)
theorem arg11_W10 (c : Dev nD) : W10 m ρ c (Proc.devRef .tc main_arg11) = m ((c : Thread nD τ).loc main_arg11) :=
  ((W10_of_ne m ρ c main_arg11 (by decide)) : W10 m ρ c (Proc.devRef .tc main_arg11) = W9 m ρ c (Proc.devRef .tc main_arg11)).trans (arg11_W9 m ρ c)

end Cert.KernelIdeal.Layers

end
-- ==== Proof.KernelRun.lean ====
/-
  The kernel program's run, with its result array named.

  Every weakly fair execution of the program ends, nothing faulting, in a state whose unscoped buffers hold the
  contents the fold through the program's twelve segments (eight regions among four stretches of host operations)
  leaves; so the result buffer ends at that fold's value there, and the arguments as launched. This is the frame's
  run read at one more buffer.
-/
import proofs.«137852_j15393162789376_1_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments unchanged. -/
theorem run_out : θ_run defs (onTc (τ := τ) (main (F := F))) ⟨m, fun _ => 0, ρ⟩ (fun r => ∀ c : Dev nD,
      r.2.mem ((c.tc : Thread nD τ).loc main_v63) = W12 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v63 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Layers

end
-- ==== Proof.Agg.lean ====
/-
  The neighbourhood aggregation of a graph layer, as the host spells it.

  Given the edges' sources, targets and weights, the aggregation of an array `s` of node rows sums, into row `r`,
  the rows `s (source e)` scaled by `weight e` over the edges `e` whose target is `r`. The host computes it by a
  gather of rows, a product with the twice-broadcast weights, and an accumulating scatter into a zero array. Both
  programs spell it with these same operations, so it is kept as ONE function of `s` here and never opened.
-/
import proofs.«137852_j15393162789376_1_alg».proof.Proof.Gen.KernelIdeal
import Idealize.ShloMosaic.PureOps.Ideal

noncomputable section

namespace Cert.KernelIdeal.Layers

open Cert.KernelIdeal Cert.KernelIdeal.Gen Idealize.ShloMosaic Idealize.ShloMosaic.TcCoe

variable {F : FTy → Type} [FloatOps F]

/-- The aggregation over rows of width 128: a source index below zero is moved up by the number of nodes (the host's
    wrap of negative indices), the rows of `s` the sources name are gathered, each scaled by its edge's weight, and
    summed into a zero array at the rows the targets name. -/
def agg128 (src dst : (⟨S800000, .i32⟩ : BufTy).Contents (Elt F)) (w : (⟨S800000, .f32⟩ : BufTy).Contents (Elt F))
    (s : (⟨S50000x128, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf
      (Host.gather gather_S50000x128_S800000x1_S800000x128_1_0_n_n_0_1_1128 s
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x128 ![0, 1] bcast_S800000x1_S800000x128_0_1
        (broadcastInDim S800000x1 ![0] bcast_S800000_S800000x1_0 w)))

/-- The aggregation over rows of width 64: a source index below zero is moved up by the number of nodes (the host's
    wrap of negative indices), the rows of `s` the sources name are gathered, each scaled by its edge's weight, and
    summed into a zero array at the rows the targets name. -/
def agg64 (src dst : (⟨S800000, .i32⟩ : BufTy).Contents (Elt F)) (w : (⟨S800000, .f32⟩ : BufTy).Contents (Elt F))
    (s : (⟨S50000x64, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (mulf
      (Host.gather gather_S50000x64_S800000x1_S800000x64_1_0_n_n_0_1_164 s
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x64 ![0, 1] bcast_S800000x1_S800000x64_0_1
        (broadcastInDim S800000x1 ![0] bcast_S800000_S800000x1_0 w)))

/-- A bias vector of length 128 as one row. -/
abbrev row128 (b : (⟨S128, .f32⟩ : BufTy).Contents (Elt F)) : (⟨S1x128, .f32⟩ : BufTy).Contents (Elt F) :=
  shapeCast S1x128 b shapeCasts_S128_S1x128

/-- A bias vector of length 64 as one row. -/
abbrev row64 (b : (⟨S64, .f32⟩ : BufTy).Contents (Elt F)) : (⟨S1x64, .f32⟩ : BufTy).Contents (Elt F) :=
  shapeCast S1x64 b shapeCasts_S64_S1x64

/-- The value of the zero word: the floor of the first three layers. -/
abbrev zero : EReal := Ideal.ofBits .f32 0x00000000#32

end Cert.KernelIdeal.Layers

end
-- ==== Proof.Spec.lean ====
/-
  A four-layer graph convolution on the extended reals, as one function of whole arrays.

  One layer multiplies the node features `h` (an `[M, K]` array) by a weight matrix `W` (`[K, N]`), passes the
  product through a neighbourhood aggregation `A` (a map of `[M, N]` arrays to `[M, N]` arrays: gather the rows
  named by the edges' sources, scale each by its edge weight, sum into the rows named by the edges' targets), adds
  the one-row bias `b` to every row, and (all layers but the last) takes the maximum with a floor `z`:

      layerFloor A z h W b = max (A (h · W) + b, z)        layerPlain A h W b = A (h · W) + b.

  The aggregation is kept as a PARAMETER: the network is the same function of it whichever way it is spelt, so two
  programs that aggregate by the same operations compute the same network as soon as their products and their biased
  sums agree. `net` composes three floored layers of width `D` and a last plain layer of width `P`.
-/
import proofs.«137852_j15393162789376_1_alg».proof.Proof.LibPlainDot
import proofs.«137852_j15393162789376_1_alg».proof.Proof.LibRowBias

noncomputable section

namespace Cert.Gcn

open Idealize.ShloMosaic Cert.LibPlainDot Cert.LibRowBias

/-- An `[M, N]` array of extended reals. -/
abbrev Arr (M N : ℕ) : Type := (⟨2, ![M, N]⟩ : Shape).Idx → EReal

/-- One layer with its floor: aggregate the product, add the bias row, floor at `z`. -/
def layerFloor {M K N : ℕ} (A : Arr M N → Arr M N) (z : EReal) (h : Arr M K) (W : Arr K N) (b : Arr 1 N) : Arr M N :=
  rowBiasFloor z (A (rowsTimes h W)) b

/-- One layer without a floor: aggregate the product, add the bias row. -/
def layerPlain {M K N : ℕ} (A : Arr M N → Arr M N) (h : Arr M K) (W : Arr K N) (b : Arr 1 N) : Arr M N :=
  rowBias (A (rowsTimes h W)) b

/-- Three floored layers of width `D` and a last plain layer of width `P`. -/
def net {M D P : ℕ} (A : Arr M D → Arr M D) (A' : Arr M P → Arr M P) (z : EReal) (x : Arr M D)
    (W0 : Arr D D) (b0 : Arr 1 D) (W1 : Arr D D) (b1 : Arr 1 D) (W2 : Arr D D) (b2 : Arr 1 D)
    (W3 : Arr D P) (b3 : Arr 1 P) : Arr M P :=
  layerPlain A' (layerFloor A z (layerFloor A z (layerFloor A z x W0 b0) W1 b1) W2 b2) W3 b3

end Cert.Gcn

end
-- ==== Proof.KernelValue.lean ====
/-
  The kernel program's result is the four-layer network of its arguments.

  The program's buffer contents are followed through its twelve segments. A product region leaves the product of
  the previous layer's output and the layer's weight matrix; the host operations after it aggregate that product
  (`agg128` / `agg64`) and reshape the bias vector to one row; the bias region leaves the aggregated array plus the
  bias row, floored at zero in the first three layers. Each array a segment reads is either the previous segment's
  result or an argument, and an argument holds at every boundary what it held at launch.
-/
import proofs.«137852_j15393162789376_1_alg».proof.Proof.Region0
import proofs.«137852_j15393162789376_1_alg».proof.Proof.Region1
import proofs.«137852_j15393162789376_1_alg».proof.Proof.Region2
import proofs.«137852_j15393162789376_1_alg».proof.Proof.Region3
import proofs.«137852_j15393162789376_1_alg».proof.Proof.Region4
import proofs.«137852_j15393162789376_1_alg».proof.Proof.Region5
import proofs.«137852_j15393162789376_1_alg».proof.Proof.Region6
import proofs.«137852_j15393162789376_1_alg».proof.Proof.Region7
import proofs.«137852_j15393162789376_1_alg».proof.Proof.KernelArgs
import proofs.«137852_j15393162789376_1_alg».proof.Proof.KernelRun
import proofs.«137852_j15393162789376_1_alg».proof.Proof.Agg
import proofs.«137852_j15393162789376_1_alg».proof.Proof.Spec
import Idealize.ShloMosaic.Lib.StableHlo.Run

set_option maxRecDepth 16384

noncomputable section

namespace Cert.KernelIdeal.Layers

open Cert.KernelIdeal Cert.KernelIdeal.Gen Idealize.ShloMosaic Idealize.ShloMosaic.TcCoe Idealize.SL.Sem
open Idealize.ShloMosaic.StableHlo
open Cert.Gcn Cert.LibPlainDot Cert.LibRowBias

variable (m : (ℓ : Loc nD τ sig) → Buf (Elt Ideal) ℓ) (ρ : Dev nD → PrngReg)

/-- An argument array as launched. -/
abbrev arg (c : Dev nD) (a : Ref sig .tc) : Buf (Elt Ideal) ((c : Thread nD τ).loc a) := m ((c : Thread nD τ).loc a)

/-- The layers' outputs as functions of the arguments. -/
def out1 (c : Dev nD) : Arr 50000 128 :=
  layerFloor (M := 50000) (K := 128) (N := 128) (agg128 (arg m c main_arg1) (arg m c main_arg2) (arg m c main_arg3)) zero (arg m c main_arg0) (arg m c main_arg4) (row128 (arg m c main_arg5))
def out2 (c : Dev nD) : Arr 50000 128 :=
  layerFloor (M := 50000) (K := 128) (N := 128) (agg128 (arg m c main_arg1) (arg m c main_arg2) (arg m c main_arg3)) zero (out1 m c) (arg m c main_arg6) (row128 (arg m c main_arg7))
def out3 (c : Dev nD) : Arr 50000 128 :=
  layerFloor (M := 50000) (K := 128) (N := 128) (agg128 (arg m c main_arg1) (arg m c main_arg2) (arg m c main_arg3)) zero (out2 m c) (arg m c main_arg8) (row128 (arg m c main_arg9))
def out4 (c : Dev nD) : Arr 50000 64 :=
  layerPlain (M := 50000) (K := 128) (N := 64) (agg64 (arg m c main_arg1) (arg m c main_arg2) (arg m c main_arg3)) (out3 m c) (arg m c main_arg10) (row64 (arg m c main_arg11))

/-! ## Layer 1 -/

theorem prod1 (c : Dev nD) : (W1 m ρ c (Proc.devRef .tc main_v0) : Arr 50000 128) = rowsTimes (M := 50000) (K := 128) (N := 128) (arg m c main_arg0) (arg m c main_arg4) :=
  (W1_arr m ρ c 2).trans (final0 (V0 m ρ) c)

set_option maxHeartbeats 4000000 in
theorem host1 (c : Dev nD) : (W2 m ρ c (Proc.devRef .tc main_v13) : Arr 50000 128)
      = agg128 (W1 m ρ c (Proc.devRef .tc main_arg1)) (W1 m ρ c (Proc.devRef .tc main_arg2)) (W1 m ρ c (Proc.devRef .tc main_arg3)) (W1 m ρ c (Proc.devRef .tc main_v0))
    ∧ (W2 m ρ c (Proc.devRef .tc main_v14) : Arr 1 128) = row128 (W1 m ρ c (Proc.devRef .tc main_arg5)) := by
  constructor
  · dsimp only [W2, hostOps1]
    after_results
    rfl
  · dsimp only [W2, hostOps1]
    after_results
    rfl

theorem bias1 (c : Dev nD) : (W3 m ρ c (Proc.devRef .tc main_v15) : Arr 50000 128) = out1 m c := by
  refine (W3_arr m ρ c 2).trans ((final1 (V2 m ρ) c).trans ?_)
  show rowBiasFloor (M := 50000) (N := 128) zero (W2 m ρ c (Proc.devRef .tc main_v13)) (W2 m ρ c (Proc.devRef .tc main_v14)) = _
  rw [(host1 m ρ c).1, (host1 m ρ c).2, arg1_W1 m ρ c, arg2_W1 m ρ c, arg3_W1 m ρ c, arg5_W1 m ρ c, prod1 m ρ c]
  rfl

/-! ## Layer 2 -/

theorem prod2 (c : Dev nD) : (W4 m ρ c (Proc.devRef .tc main_v16) : Arr 50000 128)
    = rowsTimes (M := 50000) (K := 128) (N := 128) (out1 m c) (arg m c main_arg6) := by
  refine (W4_arr m ρ c 2).trans ((final2 (V3 m ρ) c).trans ?_)
  show rowsTimes (M := 50000) (K := 128) (N := 128) (W3 m ρ c (Proc.devRef .tc main_v15)) (W3 m ρ c (Proc.devRef .tc main_arg6)) = _
  rw [bias1 m ρ c, arg6_W3 m ρ c]

set_option maxHeartbeats 4000000 in
theorem host2 (c : Dev nD) : (W5 m ρ c (Proc.devRef .tc main_v29) : Arr 50000 128)
      = agg128 (W4 m ρ c (Proc.devRef .tc main_arg1)) (W4 m ρ c (Proc.devRef .tc main_arg2)) (W4 m ρ c (Proc.devRef .tc main_arg3)) (W4 m ρ c (Proc.devRef .tc main_v16))
    ∧ (W5 m ρ c (Proc.devRef .tc main_v30) : Arr 1 128) = row128 (W4 m ρ c (Proc.devRef .tc main_arg7)) := by
  constructor
  · dsimp only [W5, hostOps3]
    after_results
    rfl
  · dsimp only [W5, hostOps3]
    after_results
    rfl

theorem bias2 (c : Dev nD) : (W6 m ρ c (Proc.devRef .tc main_v31) : Arr 50000 128) = out2 m c := by
  refine (W6_arr m ρ c 2).trans ((final3 (V5 m ρ) c).trans ?_)
  show rowBiasFloor (M := 50000) (N := 128) zero (W5 m ρ c (Proc.devRef .tc main_v29)) (W5 m ρ c (Proc.devRef .tc main_v30)) = _
  rw [(host2 m ρ c).1, (host2 m ρ c).2, arg1_W4 m ρ c, arg2_W4 m ρ c, arg3_W4 m ρ c, arg7_W4 m ρ c, prod2 m ρ c]
  rfl

/-! ## Layer 3 -/

theorem prod3 (c : Dev nD) : (W7 m ρ c (Proc.devRef .tc main_v32) : Arr 50000 128)
    = rowsTimes (M := 50000) (K := 128) (N := 128) (out2 m c) (arg m c main_arg8) := by
  refine (W7_arr m ρ c 2).trans ((final4 (V6 m ρ) c).trans ?_)
  show rowsTimes (M := 50000) (K := 128) (N := 128) (W6 m ρ c (Proc.devRef .tc main_v31)) (W6 m ρ c (Proc.devRef .tc main_arg8)) = _
  rw [bias2 m ρ c, arg8_W6 m ρ c]

set_option maxHeartbeats 4000000 in
theorem host3 (c : Dev nD) : (W8 m ρ c (Proc.devRef .tc main_v45) : Arr 50000 128)
      = agg128 (W7 m ρ c (Proc.devRef .tc main_arg1)) (W7 m ρ c (Proc.devRef .tc main_arg2)) (W7 m ρ c (Proc.devRef .tc main_arg3)) (W7 m ρ c (Proc.devRef .tc main_v32))
    ∧ (W8 m ρ c (Proc.devRef .tc main_v46) : Arr 1 128) = row128 (W7 m ρ c (Proc.devRef .tc main_arg9)) := by
  constructor
  · dsimp only [W8, hostOps5]
    after_results
    rfl
  · dsimp only [W8, hostOps5]
    after_results
    rfl

theorem bias3 (c : Dev nD) : (W9 m ρ c (Proc.devRef .tc main_v47) : Arr 50000 128) = out3 m c := by
  refine (W9_arr m ρ c 2).trans ((final5 (V8 m ρ) c).trans ?_)
  show rowBiasFloor (M := 50000) (N := 128) zero (W8 m ρ c (Proc.devRef .tc main_v45)) (W8 m ρ c (Proc.devRef .tc main_v46)) = _
  rw [(host3 m ρ c).1, (host3 m ρ c).2, arg1_W7 m ρ c, arg2_W7 m ρ c, arg3_W7 m ρ c, arg9_W7 m ρ c, prod3 m ρ c]
  rfl

/-! ## Layer 4 -/

theorem prod4 (c : Dev nD) : (W10 m ρ c (Proc.devRef .tc main_v48) : Arr 50000 64)
    = rowsTimes (M := 50000) (K := 128) (N := 64) (out3 m c) (arg m c main_arg10) := by
  refine (W10_arr m ρ c 2).trans ((final6 (V9 m ρ) c).trans ?_)
  show rowsTimes (M := 50000) (K := 128) (N := 64) (W9 m ρ c (Proc.devRef .tc main_v47)) (W9 m ρ c (Proc.devRef .tc main_arg10)) = _
  rw [bias3 m ρ c, arg10_W9 m ρ c]

set_option maxHeartbeats 4000000 in
theorem host4 (c : Dev nD) : (W11 m ρ c (Proc.devRef .tc main_v61) : Arr 50000 64)
      = agg64 (W10 m ρ c (Proc.devRef .tc main_arg1)) (W10 m ρ c (Proc.devRef .tc main_arg2)) (W10 m ρ c (Proc.devRef .tc main_arg3)) (W10 m ρ c (Proc.devRef .tc main_v48))
    ∧ (W11 m ρ c (Proc.devRef .tc main_v62) : Arr 1 64) = row64 (W10 m ρ c (Proc.devRef .tc main_arg11)) := by
  constructor
  · dsimp only [W11, hostOps7]
    after_results
    rfl
  · dsimp only [W11, hostOps7]
    after_results
    rfl

theorem bias4 (c : Dev nD) : (W12 m ρ c (Proc.devRef .tc main_v63) : Arr 50000 64) = out4 m c := by
  refine (W12_arr m ρ c 2).trans ((final7 (V11 m ρ) c).trans ?_)
  show rowBias (M := 50000) (N := 64) (W11 m ρ c (Proc.devRef .tc main_v61)) (W11 m ρ c (Proc.devRef .tc main_v62)) = _
  rw [(host4 m ρ c).1, (host4 m ρ c).2, arg1_W10 m ρ c, arg2_W10 m ρ c, arg3_W10 m ρ c, arg11_W10 m ρ c, prod4 m ρ c]
  rfl

/-! ## The network -/

/-- The result buffer's last contents are the network of the arguments. -/
theorem result_eq (c : Dev nD) : (W12 m ρ c (Proc.devRef .tc main_v63) : Arr 50000 64)
    = net (M := 50000) (D := 128) (P := 64) (agg128 (arg m c main_arg1) (arg m c main_arg2) (arg m c main_arg3)) (agg64 (arg m c main_arg1) (arg m c main_arg2) (arg m c main_arg3)) zero
        (arg m c main_arg0) (arg m c main_arg4) (row128 (arg m c main_arg5)) (arg m c main_arg6) (row128 (arg m c main_arg7)) (arg m c main_arg8) (row128 (arg m c main_arg9)) (arg m c main_arg10) (row64 (arg m c main_arg11)) :=
  (bias4 m ρ c).trans rfl

/-- The kernel program's run: the result buffer ends at the network of the arguments, the arguments unchanged. -/
theorem run : θ_run defs (onTc (τ := τ) (main (F := Ideal))) ⟨m, fun _ => 0, ρ⟩ (fun r => ∀ c : Dev nD,
      r.2.mem ((c.tc : Thread nD τ).loc main_v63)
        = net (M := 50000) (D := 128) (P := 64) (agg128 (arg m c main_arg1) (arg m c main_arg2) (arg m c main_arg3)) (agg64 (arg m c main_arg1) (arg m c main_arg2) (arg m c main_arg3)) zero
            (arg m c main_arg0) (arg m c main_arg4) (row128 (arg m c main_arg5)) (arg m c main_arg6) (row128 (arg m c main_arg7)) (arg m c main_arg8) (row128 (arg m c main_arg9)) (arg m c main_arg10) (row64 (arg m c main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_eq m ρ c), (h c).2⟩) (run_out m ρ)

end Cert.KernelIdeal.Layers

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«137852_j15393162789376_1_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.RefValue.lean ====
/-
  The reference program's result is the four-layer network of its arguments.

  Layer by layer the reference computes a host matrix product (the plain product of whole arrays), the aggregation
  (the same gather, scaling and accumulating scatter as the kernel program's host operations: the one function
  `agg128` / `agg64` of the product), and the sum with the bias vector broadcast first to one row and then over all
  rows — which is the row-wise sum with the vector reshaped to one row — followed, in the first three layers, by the
  maximum with a broadcast zero.
-/
import proofs.«137852_j15393162789376_1_alg».proof.Proof.Gen.ReferenceIdeal.Read
import proofs.«137852_j15393162789376_1_alg».proof.Proof.Spec
import proofs.«137852_j15393162789376_1_alg».proof.Proof.Agg
import proofs.«137852_j15393162789376_1_alg».proof.Proof.LibRowBiasHost

noncomputable section

namespace Cert.ReferenceIdeal.RefValue

open Cert.ReferenceIdeal Cert.ReferenceIdeal.Gen Cert.ReferenceIdeal.Read Idealize.ShloMosaic Idealize.ShloMosaic.TcCoe
open Cert.Gcn Cert.LibPlainDot Cert.LibRowBias
open Cert.KernelIdeal.Layers (agg128 agg64 row128 row64 zero)

variable (x0 : (⟨S50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S128x64, .f32⟩ : BufTy).Contents (Elt Ideal))
    (x11 : (⟨S64, .f32⟩ : BufTy).Contents (Elt Ideal))

/-! ## Layer 1 -/

theorem prod1 : val_main_v0 (F := Ideal) x0 x4 = rowsTimes (M := 50000) (K := 128) (N := 128) x0 x4 :=
  dotGeneral_plain (M := 50000) (K := 128) (N := 128) none .single x0 x4

theorem agg1 : val_main_v13 (F := Ideal) x0 x1 x2 x3 x4 = agg128 x1 x2 x3 (val_main_v0 (F := Ideal) x0 x4) := rfl

theorem layer1 : val_main_v17 (F := Ideal) x0 x1 x2 x3 x4 x5
    = layerFloor (M := 50000) (K := 128) (N := 128) (agg128 x1 x2 x3) zero x0 x4 (row128 x5) := by
  refine (max_addf_bcastRow (M := 50000) (N := 128) 0x00000000#32 (val_main_v13 (F := Ideal) x0 x1 x2 x3 x4) x5
    bcast_S_S50000x128 bcast_S128_S1x128_1 bcast_S1x128_S50000x128_0_1 Cert.KernelIdeal.Gen.shapeCasts_S128_S1x128).trans ?_
  rw [agg1, prod1]
  rfl

/-! ## Layer 2 -/

theorem prod2 : val_main_v18 (F := Ideal) x0 x1 x2 x3 x4 x5 x6
    = rowsTimes (M := 50000) (K := 128) (N := 128) (val_main_v17 (F := Ideal) x0 x1 x2 x3 x4 x5) x6 :=
  dotGeneral_plain (M := 50000) (K := 128) (N := 128) none .single _ x6

theorem agg2 : val_main_v31 (F := Ideal) x0 x1 x2 x3 x4 x5 x6
    = agg128 x1 x2 x3 (val_main_v18 (F := Ideal) x0 x1 x2 x3 x4 x5 x6) := rfl

theorem layer2 : val_main_v35 (F := Ideal) x0 x1 x2 x3 x4 x5 x6 x7
    = layerFloor (M := 50000) (K := 128) (N := 128) (agg128 x1 x2 x3) zero (val_main_v17 (F := Ideal) x0 x1 x2 x3 x4 x5) x6 (row128 x7) := by
  refine (max_addf_bcastRow (M := 50000) (N := 128) 0x00000000#32 (val_main_v31 (F := Ideal) x0 x1 x2 x3 x4 x5 x6) x7
    bcast_S_S50000x128 bcast_S128_S1x128_1 bcast_S1x128_S50000x128_0_1 Cert.KernelIdeal.Gen.shapeCasts_S128_S1x128).trans ?_
  rw [agg2, prod2]
  rfl

/-! ## Layer 3 -/

theorem prod3 : val_main_v36 (F := Ideal) x0 x1 x2 x3 x4 x5 x6 x7 x8
    = rowsTimes (M := 50000) (K := 128) (N := 128) (val_main_v35 (F := Ideal) x0 x1 x2 x3 x4 x5 x6 x7) x8 :=
  dotGeneral_plain (M := 50000) (K := 128) (N := 128) none .single _ x8

theorem agg3 : val_main_v49 (F := Ideal) x0 x1 x2 x3 x4 x5 x6 x7 x8
    = agg128 x1 x2 x3 (val_main_v36 (F := Ideal) x0 x1 x2 x3 x4 x5 x6 x7 x8) := rfl

theorem layer3 : val_main_v53 (F := Ideal) x0 x1 x2 x3 x4 x5 x6 x7 x8 x9
    = layerFloor (M := 50000) (K := 128) (N := 128) (agg128 x1 x2 x3) zero (val_main_v35 (F := Ideal) x0 x1 x2 x3 x4 x5 x6 x7) x8 (row128 x9) := by
  refine (max_addf_bcastRow (M := 50000) (N := 128) 0x00000000#32 (val_main_v49 (F := Ideal) x0 x1 x2 x3 x4 x5 x6 x7 x8) x9
    bcast_S_S50000x128 bcast_S128_S1x128_1 bcast_S1x128_S50000x128_0_1 Cert.KernelIdeal.Gen.shapeCasts_S128_S1x128).trans ?_
  rw [agg3, prod3]
  rfl

/-! ## Layer 4 (no floor) -/

theorem prod4 : val_main_v54 (F := Ideal) x0 x1 x2 x3 x4 x5 x6 x7 x8 x9 x10
    = rowsTimes (M := 50000) (K := 128) (N := 64) (val_main_v53 (F := Ideal) x0 x1 x2 x3 x4 x5 x6 x7 x8 x9) x10 :=
  dotGeneral_plain (M := 50000) (K := 128) (N := 64) none .single _ x10

theorem agg4 : val_main_v67 (F := Ideal) x0 x1 x2 x3 x4 x5 x6 x7 x8 x9 x10
    = agg64 x1 x2 x3 (val_main_v54 (F := Ideal) x0 x1 x2 x3 x4 x5 x6 x7 x8 x9 x10) := rfl

theorem layer4 : val_main_v70 (F := Ideal) x0 x1 x2 x3 x4 x5 x6 x7 x8 x9 x10 x11
    = layerPlain (M := 50000) (K := 128) (N := 64) (agg64 x1 x2 x3) (val_main_v53 (F := Ideal) x0 x1 x2 x3 x4 x5 x6 x7 x8 x9) x10 (row64 x11) := by
  refine (addf_bcastRow (M := 50000) (N := 64) (val_main_v67 (F := Ideal) x0 x1 x2 x3 x4 x5 x6 x7 x8 x9 x10) x11
    bcast_S64_S1x64_1 bcast_S1x64_S50000x64_0_1 Cert.KernelIdeal.Gen.shapeCasts_S64_S1x64).trans ?_
  rw [agg4, prod4]
  rfl

/-! ## The network -/

/-- The reference's last stage is the network of its arguments. -/
theorem ref_net : val_main_v70 (F := Ideal) x0 x1 x2 x3 x4 x5 x6 x7 x8 x9 x10 x11
    = net (M := 50000) (D := 128) (P := 64) (agg128 x1 x2 x3) (agg64 x1 x2 x3) zero x0 x4 (row128 x5) x6 (row128 x7) x8 (row128 x9) x10 (row64 x11) := by
  rw [layer4, layer3, layer2, layer1]
  rfl

end Cert.ReferenceIdeal.RefValue

end
-- ==== Proof.lean ====
/-
  A four-layer graph convolution: a tiled kernel program against a plain reference, equal on the extended reals.

  Both programs compute, layer by layer, `max (A (h · W) + b, 0)` (the last layer without the maximum), where `A` is
  the neighbourhood aggregation — gather the rows the edges' sources name, scale each by its edge weight, sum into the
  rows the edges' targets name. The kernel program computes `h · W` in a kernel over ten blocks of 5000 rows (rounding
  both operands to a narrower format first, which changes nothing on the extended reals) and `· + b` with its
  maximum in a second kernel over the same blocks; the reference computes them by one host product and broadcast sums.
  The aggregation is the same host operations in both. A block of rows of the product, and of the biased sum, is that
  block of the whole-array function, and the ten blocks tile the array; so both results are the one function `net`
  of the arguments. No finiteness is used: the two sides differ only in how the arrays are cut into rows.

  The three frames are the generated ones (the reference's is its generated run with the result dropped); the
  idealization rewrote nothing, so `preserves` is `True`.
-/
import proofs.«137852_j15393162789376_1_alg».proof.Defs
import proofs.«137852_j15393162789376_1_alg».proof.Proof.Gen.Kernel
import proofs.«137852_j15393162789376_1_alg».proof.Proof.Gen.Kernel.Frame
import proofs.«137852_j15393162789376_1_alg».proof.Proof.Gen.KernelIdeal
import proofs.«137852_j15393162789376_1_alg».proof.Proof.Gen.KernelIdeal.Frame
import proofs.«137852_j15393162789376_1_alg».proof.Proof.Gen.ReferenceIdeal
import proofs.«137852_j15393162789376_1_alg».proof.Proof.Gen.Pre_finite_inputs
import proofs.«137852_j15393162789376_1_alg».proof.Proof.Gen.ReferenceIdeal.Run
import proofs.«137852_j15393162789376_1_alg».proof.Proof.Gen.ReferenceIdeal.Read
import proofs.«137852_j15393162789376_1_alg».proof.Proof.KernelValue
import proofs.«137852_j15393162789376_1_alg».proof.Proof.RefValue
import Idealize.ShloMosaic.Adequacy
import Idealize.ShloMosaic.Init

noncomputable section

namespace Cert.Proof

open Idealize.ShloMosaic Idealize.ShloMosaic.TcCoe Idealize.SL.Sem
open Cert.KernelIdeal.Layers (agg128 agg64 row128 row64 zero)

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the (agreeing) arguments in their result buffers. -/
theorem algebraic : Cert.algebraic_KernelIdeal_ReferenceIdeal := by
  intro m ρ m' ρ' _ hagree
  refine ⟨fun c => Cert.Gcn.net (M := 50000) (D := 128) (P := 64)
      (agg128 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (agg64 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) zero
      (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (row128 (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (row128 (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (row128 (m ((c.tc : Thread Cert.KernelIdeal.nD Cert.KernelIdeal.τ).loc Cert.KernelIdeal.main_arg9))) (m ((c.tc : Thread Cert.KernelIdeal.nD Cert.KernelIdeal.τ).loc Cert.KernelIdeal.main_arg10)) (row64 (m ((c.tc : Thread Cert.KernelIdeal.nD Cert.KernelIdeal.τ).loc Cert.KernelIdeal.main_arg11))),
    Cert.KernelIdeal.Layers.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v70_eq, Cert.ReferenceIdeal.RefValue.ref_net, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
